-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 102
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x128, .f32⟩
  | .hbm, ⟨94, _⟩ => ⟨S1700000x1, .f32⟩
  | .hbm, ⟨95, _⟩ => ⟨S1700000x128, .f32⟩
  | .hbm, ⟨96, _⟩ => ⟨S1700000x128, .f32⟩
  | .hbm, ⟨97, _⟩ => ⟨S_, .f32⟩
  | .hbm, ⟨98, _⟩ => ⟨S100000x128, .f32⟩
  | .hbm, ⟨99, _⟩ => ⟨S1700000x1, .i32⟩
  | .hbm, ⟨100, _⟩ => ⟨S100000x128, .f32⟩
  | .hbm, ⟨101, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S5000x128_S5000x128 : S5000x128.ShapeCasts S5000x128
  shapeCasts_S128_S1x128 : S128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S1700000x1, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x128, .f32⟩
  | .hbm, ⟨103, _⟩ => ⟨S1700000x128, .f32⟩
  | .hbm, ⟨104, _⟩ => ⟨S1700000x128, .f32⟩
  | .hbm, ⟨105, _⟩ => ⟨S_, .f32⟩
  | .hbm, ⟨106, _⟩ => ⟨S100000x128, .f32⟩
  | .hbm, ⟨107, _⟩ => ⟨S1700000x1, .i32⟩
  | .hbm, ⟨108, _⟩ => ⟨S100000x128, .f32⟩
  | .hbm, ⟨109, _⟩ => ⟨S1x128, .f32⟩
  | .hbm, ⟨110, _⟩ => ⟨S100000x128, .f32⟩
  | .hbm, ⟨111, _⟩ => ⟨S100000x128, .f32⟩
  | .hbm, ⟨112, _⟩ => ⟨S_, .f32⟩
  | .hbm, ⟨113, _⟩ => ⟨S100000x128, .f32⟩
  | .hbm, ⟨114, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_call3_cst : Ref sig .tc := ⟨.hbm, 112, rfl⟩
abbrev main_call3_v0 : Ref sig .tc := ⟨.hbm, 113, rfl⟩
abbrev main_v81 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The run of the idealized kernel program with its result named.

  The program is six kernel launches among stretches of host operations. From any memory with zero counters every
  weakly fair execution terminates without a fault, and at the end every buffer the program does not scope holds what
  the last boundary's contents `W12` say: in particular the result buffer holds `W12` at the result, and each argument
  still holds what it was launched with. `W12` is the fold through the program: a host stretch's operations applied in
  order, a launch's arrays at what its write-backs leave.
-/
import proofs.«136238_j68478958568087_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run : θ_run defs (onTc (τ := τ) (main (F := F))) ⟨m, fun _ => 0, ρ⟩ (fun r => ∀ c : Dev nD,
      r.2.mem ((c.tc : Thread nD τ).loc main_v74) = W12 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v74 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.GcnRun

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«136238_j68478958568087_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibDense.lean ====
/-
  A dense layer read at an entry, over the extended reals.

  A dense layer is a plain matrix product plus a bias vector added to every row. On the matrix unit it is written as the
  product into a zero accumulator plus the bias, held as a one-row matrix, broadcast over the rows; on the host as the
  dot_general plus the bias vector broadcast first to one row and then over the rows. Either way the entry (p, q) is
  the row-by-column sum Σ_k A (p, k) · B (k, q) plus the bias at q. The extents and the operands' float formats are
  arbitrary.
-/
import proofs.«136238_j68478958568087_1_alg».proof.Proof.LibMatmulPlain
import proofs.«136238_j68478958568087_1_alg».proof.Proof.LibHostDotPlain
import Idealize.ShloMosaic.Lib.ValueLayout
import Idealize.ShloMosaic.Lib.Pipeline.Value

noncomputable section

open scoped BigOperators

namespace Idealize.ShloMosaic.Dense

open Idealize.ShloMosaic Idealize.ShloMosaic.ValueIdx

variable {M K N : Nat}

/-- The matrix unit's dense layer at an entry: the product into the zero accumulator, plus the one-row bias broadcast
    over the rows. -/
theorem matmul_bias_apply {φ₁ φ₂ : FTy} (A : FVec Ideal ⟨2, ![M, K]⟩ φ₁) (B : FVec Ideal ⟨2, ![K, N]⟩ φ₂)
    (c : FVec Ideal ⟨2, ![1, N]⟩ .f32) (h : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ c h) (ix2 p q)
      = ∑ k : Fin K, A (ix2 p k) * B (ix2 k q) + c (ix2 (0 : Fin 1) q) := by
  show matmul (DotDims.plain M K N) none A B (constant (F := Ideal) ⟨2, ![M, N]⟩ .f32 0x00000000#32) (ix2 p q)
      + broadcastTo ⟨2, ![M, N]⟩ c h (ix2 p q) = _
  rw [MatmulPlain.matmul_zero_apply, broadcastTo_1b_ab_apply]
  rfl

/-- A bias vector broadcast to one row and then over the rows, at an entry: the bias at the column. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : (if N = 1 then 0 else q.val) = q.val := by
    split
    · have := q.isLt; omega
    · rfl
  refine (broadcastInDim_apply ![0, 1] h2 _ (ix2 p q) (ix2 (0 : Fin 1) q) fun ax => ?_).trans ?_
  · match ax with
    | ⟨0, _⟩ => rfl
    | ⟨1, _⟩ => exact hq.symm
  · refine broadcastInDim_apply ![1] h1 b (ix2 (0 : Fin 1) q) (ix1 q) fun ax => ?_
    match ax with
    | ⟨0, _⟩ => exact hq.symm

/-- The host's dense layer at an entry: the dot_general plus the bias vector broadcast over the rows. -/
theorem dot_bias_apply {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = ∑ k : Fin K, A (ix2 p k) * B (ix2 k q) + b (ix1 q) := by
  show Host.dotGeneral (F := Ideal) (DotDims.plain M K N) none A B (ix2 p q)
      + broadcastInDim ⟨2, ![M, N]⟩ ![0, 1] h2 (broadcastInDim ⟨2, ![1, N]⟩ ![1] h1 b) (ix2 p q) = _
  rw [HostDotPlain.dotGeneral_apply, bias_rows_apply]
  rfl

end Idealize.ShloMosaic.Dense

end
-- ==== Proof.Layer.lean ====
/-
  One layer of the network, as two whole-array functions, and the spellings of them that the two programs use.

  `rowsTimes h w` is the matrix product: entry (p, q) is the sum over k of h (p, k) * w (k, q).
  `biasRelu a b` adds the bias vector b to every row of a and clips at zero: entry (p, q) is
  max (a (p, q) + b q) 0, the zero kept as the word it is written with.

  The matrix unit's product of the two operands (each first narrowed to bf16, which changes nothing over the extended
  reals) into a zero accumulator is `rowsTimes` entry by entry, and so is the host's dot_general. The vector unit's
  "cast the bias to one row, broadcast the row, add, take the maximum with a splat zero" is `biasRelu` entry by entry,
  and so is the host's "broadcast the bias to one row and then over the rows, add, take the maximum with a broadcast
  zero". The extents are arbitrary throughout.
-/
import proofs.«136238_j68478958568087_1_alg».proof.Proof.LibMatmulPlain
import proofs.«136238_j68478958568087_1_alg».proof.Proof.LibHostDotPlain
import proofs.«136238_j68478958568087_1_alg».proof.Proof.LibDense
import Idealize.ShloMosaic.Lib.ValueLayout
import Idealize.ShloMosaic.Lib.Pipeline.Value

noncomputable section

open scoped BigOperators

namespace Cert.Gcn

open Idealize.ShloMosaic Idealize.ShloMosaic.ValueIdx

variable {M K N : Nat}

/-- The matrix product of an [M, K] array and a [K, N] array, entry by entry. -/
def rowsTimes (h : FVec Ideal ⟨2, ![M, K]⟩ .f32) (w : FVec Ideal ⟨2, ![K, N]⟩ .f32) : FVec Ideal ⟨2, ![M, N]⟩ .f32 :=
  fun i => ∑ k : Fin K, h (ix2 (i 0) k) * w (ix2 k (i 1))

/-- A bias vector added to every row, then the maximum with zero, entry by entry. -/
def biasRelu (a : FVec Ideal ⟨2, ![M, N]⟩ .f32) (b : FVec Ideal ⟨1, ![N]⟩ .f32) : FVec Ideal ⟨2, ![M, N]⟩ .f32 :=
  fun i => max (a i + b (ix1 (i 1))) (Ideal.ofBits .f32 0x00000000#32)

/-- The matrix unit's product of the bf16-narrowed operands into a zero accumulator, at an entry: the row-by-column
    sum of the operands themselves (narrowing is the identity over the extended reals). -/
theorem matmul_bf16_apply (x : FVec Ideal ⟨2, ![M, K]⟩ .f32) (w : FVec Ideal ⟨2, ![K, N]⟩ .f32)
    (hb : FTy.bf16.bits < FTy.f32.bits) (j : (⟨2, ![M, N]⟩ : Shape).Idx) :
    matmul (DotDims.plain M K N) none (truncf .bf16 x hb) (truncf .bf16 w hb)
        (constant (F := Ideal) ⟨2, ![M, N]⟩ .f32 0x00000000#32) j
      = ∑ k : Fin K, x (ix2 (j 0) k) * w (ix2 k (j 1)) :=
  MatmulPlain.matmul_zero_apply none (truncf .bf16 x hb) (truncf .bf16 w hb) j

/-- The host's dot_general is the matrix product. -/
theorem hostDot_eq (h : FVec Ideal ⟨2, ![M, K]⟩ .f32) (w : FVec Ideal ⟨2, ![K, N]⟩ .f32) :
    Host.dotGeneral (F := Ideal) (DotDims.plain M K N) none h w = rowsTimes h w :=
  funext fun j => HostDotPlain.dotGeneral_apply none h w j

/-- The vector unit's bias step at an entry: the bias cast to one row, the row broadcast over the rows and added,
    the maximum with a splat zero. -/
theorem biasRelu_vec_apply (x : FVec Ideal ⟨2, ![M, N]⟩ .f32) (b : FVec Ideal ⟨1, ![N]⟩ .f32)
    (h0 : (⟨2, ![M, N]⟩ : Shape).ShapeCasts ⟨2, ![M, N]⟩) (h1 : (⟨1, ![N]⟩ : Shape).ShapeCasts ⟨2, ![1, N]⟩)
    (h2 : (⟨2, ![1, N]⟩ : Shape).Broadcasts ⟨2, ![M, N]⟩) (p : Fin M) (q : Fin N) :
    maximumf (addf (shapeCast ⟨2, ![M, N]⟩ x h0) (broadcastTo ⟨2, ![M, N]⟩ (shapeCast ⟨2, ![1, N]⟩ b h1) h2))
        (broadcast ⟨2, ![M, N]⟩ (Scalar.ofBits (F := Ideal) .f32 0x00000000#32)) (ix2 p q)
      = max (x (ix2 p q) + b (ix1 q)) (Ideal.ofBits .f32 0x00000000#32) := by
  show max (shapeCast ⟨2, ![M, N]⟩ x h0 (ix2 p q)
      + broadcastTo ⟨2, ![M, N]⟩ (shapeCast ⟨2, ![1, N]⟩ b h1) h2 (ix2 p q)) (Ideal.ofBits .f32 0x00000000#32) = _
  rw [shapeCast_self, broadcastTo_1b_ab_apply, shapeCast_a_1a_apply]

/-- The host's bias step is `biasRelu`: the bias broadcast to one row and then over the rows, added, and the maximum
    with a broadcast zero. -/
theorem hostBiasRelu_eq (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ (![] : Fin 0 → Fin 2)) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = biasRelu a b := by
  funext j
  obtain ⟨p, q, rfl⟩ : ∃ (p : Fin M) (q : Fin N), j = ix2 p q := ⟨j 0, j 1, eq_ix2 j⟩
  show max (a (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [Dense.bias_rows_apply, broadcastInDim_apply ![] h0 _ (ix2 p q) ix0 (fun ax => ax.elim0)]
  rfl

end Cert.Gcn

end
-- ==== Proof.KernelRegions.lean ====
/-
  What each of the six kernel launches leaves in its output array.

  Every launch walks twenty grid points; at point t it is given rows 5000 t … 5000 t + 4999 of a [100000, 128] array,
  a second operand whole (a [128, 128] weight matrix, or a bias vector of 128 entries), and writes back the same rows
  of its output. Launches 0, 2 and 4 store the block's rows times the weight matrix; launches 1, 3 and 5 store the
  block plus the bias on every row, clipped at zero. Row r of the output is written exactly once, by point r / 5000,
  and what is written there depends only on row r of the input: so the output array as a whole is the matrix product
  (`rowsTimes`), or the bias step (`biasRelu`), of the arrays the launch found. The arrays found are a parameter `V`.
-/
import proofs.«136238_j68478958568087_1_alg».proof.Proof.Gen.KernelIdeal.Frame
import proofs.«136238_j68478958568087_1_alg».proof.Proof.Layer

set_option maxRecDepth 16384

noncomputable section

open scoped BigOperators

namespace Cert.KernelIdeal.GcnRegions

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- A block's row-by-column sums are the whole product's entries, when the block's row is a row of the whole array
    and the weights are the weights. -/
theorem rows_block (A : FVec Ideal S100000x128 .f32) (B : FVec Ideal S128x128 .f32) (x0 : FVec Ideal S5000x128 .f32)
    (x1 : FVec Ideal S128x128 .f32) (j : S5000x128.Idx) (i : S100000x128.Idx)
    (hx0 : ∀ k : Fin 128, x0 (ix2 (j 0) k) = A (ix2 (i 0) k)) (hx1 : ∀ k : Fin 128, x1 (ix2 k (j 1)) = B (ix2 k (i 1))) :
    ∑ k : Fin 128, x0 (ix2 (j 0) k) * x1 (ix2 k (j 1)) = rowsTimes (M := 100000) (K := 128) (N := 128) A B i :=
  Finset.sum_congr rfl fun k _ => by rw [hx0 k, hx1 k]

/-- A block's biased and clipped entry is the whole array's, when the block's entry is the whole array's entry and
    the bias is the bias. -/
theorem bias_block (A : FVec Ideal S100000x128 .f32) (b : FVec Ideal S128 .f32) (x : FVec Ideal S5000x128 .f32)
    (y : FVec Ideal S128 .f32) (p : Fin 5000) (q : Fin 128) (i : S100000x128.Idx)
    (hx : x (ix2 p q) = A i) (hy : y (ix1 q) = b (ix1 (i 1))) :
    max (x (ix2 p q) + y (ix1 q)) (Ideal.ofBits .f32 0x00000000#32) = biasRelu (M := 100000) (N := 128) A b i := by
  rw [hx, hy]; rfl

/-! ## Launch 0: a matrix product, twenty blocks of 5000 rows -/

/-- The block coordinates of launch 0's three windows at a grid point: the two row-blocked windows are at block row `t`,
    the weight matrix is one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value at an entry of the block: the row of the input block times the column of the weights. -/
theorem pay0_apply (x0 : Vec Ideal S5000x128 .f32) (x1 : Vec Ideal S128x128 .f32) (j : S5000x128.Idx) :
    k0_pay1 x0 x1 j = ∑ k : Fin 128, x0 (ix2 (j 0) k) * x1 (ix2 k (j 1)) := by
  unfold k0_pay1
  exact Cert.Gcn.matmul_bf16_apply (M := 5000) (K := 128) (N := 128) x0 x1 _ j

/-- What grid point `t` writes back is block `t` of the whole product. -/
theorem flushed0 (c : Dev nD) (t : Fin cfg0.N) :
    (dat0 V c).flushed 2 t = ((cfg0.win 2).blk t).view.read (Elt Ideal) (rowsTimes (M := 100000) (K := 128) (N := 128) (V c main_arg0) (V c main_arg2)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  obtain ⟨e0, e1, e2, e3, e4, e5⟩ := idx0 t
  funext j
  have h0 : ∀ k : Fin 128, ((cfg0.win 0).blk t).view.emb (ix2 (j 0) k) = ix2 ((((cfg0.win 2).blk t).view.emb j) 0) k := by
    intro k; funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 k (j 1)) = ix2 k ((((cfg0.win 2).blk t).view.emb j) 1) := by
    intro k; funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  refine (pay0_apply (iblk0 V c 0 t) (iblk0 V c 1 t) j).trans ?_
  exact rows_block (V c main_arg0) (V c main_arg2) (iblk0 V c 0 t) (iblk0 V c 1 t) j (((cfg0.win 2).blk t).view.emb j)
    (fun k => congrArg (V c main_arg0) (h0 k)) (fun k => congrArg (V c main_arg2) (h1 k))

/-- An entry of the output array is in point `t`'s block iff each coordinate is in the block's range. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of the output is written by grid point `r / 5000`: the twenty blocks tile the array. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨Fin.cast N_0.symm ⟨(i 0).val / 5000, by omega⟩, flush0_2 _, ?_⟩
  rw [mem_blk0]
  obtain ⟨-, -, -, -, e4, e5⟩ := idx0 (Fin.cast N_0.symm ⟨(i 0).val / 5000, by omega⟩)
  have e4' : win0_2.index (Fin.cast N_0.symm ⟨(i 0).val / 5000, by omega⟩) (0 : Fin 2) = (i 0).val / 5000 := e4
  intro a
  match a with
  | ⟨0, _⟩ => show win0_2.index _ (0 : Fin 2) * 5000 ≤ (i 0).val ∧ (i 0).val < win0_2.index _ (0 : Fin 2) * 5000 + 5000; omega
  | ⟨1, _⟩ => show win0_2.index _ (1 : Fin 2) * 128 ≤ (i 1).val ∧ (i 1).val < win0_2.index _ (1 : Fin 2) * 128 + 128; omega

/-- After launch 0 its output array is the product of its two input arrays as the launch found them. -/
theorem value0 (c : Dev nD) :
    (dat0 V c).arrAt 2 cfg0.N = rowsTimes (M := 100000) (K := 128) (N := 128) (V c main_arg0) (V c main_arg2) :=
  (dat0 V c).arrAt_eq_of_cover 2 _ (fun t _ => flushed0 V c t) (cover0)

/-! ## Launch 1: the bias added to every row and the result clipped at zero, twenty blocks of 5000 rows -/

/-- The block coordinates of launch 1's three windows at a grid point: the two row-blocked windows are at block row `t`,
    the bias vector is one block. -/
theorem idx1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The body's stored value at an entry of the block: the block's entry plus the bias at its column, clipped at zero. -/
theorem pay1_apply (b : Vec Ideal S128 .f32) (x : Vec Ideal S5000x128 .f32) (p : Fin 5000) (q : Fin 128) :
    k1_pay1 b x (ix2 p q) = max (x (ix2 p q) + b (ix1 q)) (Ideal.ofBits .f32 0x00000000#32) := by
  unfold k1_pay1
  exact Cert.Gcn.biasRelu_vec_apply (M := 5000) (N := 128) x b _ _ _ p q

/-- What grid point `t` writes back is block `t` of the whole biased and clipped array. -/
theorem flushed1 (c : Dev nD) (t : Fin cfg1.N) :
    (dat1 V c).flushed 2 t = ((cfg1.win 2).blk t).view.read (Elt Ideal) (biasRelu (M := 100000) (N := 128) (V c main_v43) (V c main_arg3)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128) hz1]
  obtain ⟨e0, e1, e2, e3, e4⟩ := idx1 t
  funext j
  obtain ⟨p, q, rfl⟩ : ∃ (p : Fin 5000) (q : Fin 128), j = ix2 p q := ⟨j 0, j 1, eq_ix2 j⟩
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix1 q) = ix1 ((((cfg1.win 2).blk t).view.emb (ix2 p q)) 1) := by
    funext a; apply Fin.ext
    match a with
    | ⟨0, _⟩ => show win1_1.index t (0 : Fin 1) * 128 + 1 * q.val = win1_2.index t (1 : Fin 2) * 128 + 1 * q.val; omega
  refine (pay1_apply (iblk1 V c 1 t) (iblk1 V c 0 t) p q).trans ?_
  exact bias_block (V c main_v43) (V c main_arg3) (iblk1 V c 0 t) (iblk1 V c 1 t) p q (((cfg1.win 2).blk t).view.emb (ix2 p q))
    (congrArg (V c main_v43) h0) (congrArg (V c main_arg3) h1)

/-- An entry of the output array is in point `t`'s block iff each coordinate is in the block's range. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Row `r` of the output is written by grid point `r / 5000`: the twenty blocks tile the array. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  refine ⟨Fin.cast N_1.symm ⟨(i 0).val / 5000, by omega⟩, flush1_2 _, ?_⟩
  rw [mem_blk1]
  obtain ⟨-, -, -, e4, e5⟩ := idx1 (Fin.cast N_1.symm ⟨(i 0).val / 5000, by omega⟩)
  have e4' : win1_2.index (Fin.cast N_1.symm ⟨(i 0).val / 5000, by omega⟩) (0 : Fin 2) = (i 0).val / 5000 := e4
  intro a
  match a with
  | ⟨0, _⟩ => show win1_2.index _ (0 : Fin 2) * 5000 ≤ (i 0).val ∧ (i 0).val < win1_2.index _ (0 : Fin 2) * 5000 + 5000; omega
  | ⟨1, _⟩ => show win1_2.index _ (1 : Fin 2) * 128 ≤ (i 1).val ∧ (i 1).val < win1_2.index _ (1 : Fin 2) * 128 + 128; omega

/-- After launch 1 its output array is its input array biased and clipped, both as the launch found them. -/
theorem value1 (c : Dev nD) :
    (dat1 V c).arrAt 2 cfg1.N = biasRelu (M := 100000) (N := 128) (V c main_v43) (V c main_arg3) :=
  (dat1 V c).arrAt_eq_of_cover 2 _ (fun t _ => flushed1 V c t) (cover1)

/-! ## Launch 2: a matrix product, twenty blocks of 5000 rows -/

/-- The block coordinates of launch 2's three windows at a grid point: the two row-blocked windows are at block row `t`,
    the weight matrix is one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's stored value at an entry of the block: the row of the input block times the column of the weights. -/
theorem pay2_apply (x0 : Vec Ideal S5000x128 .f32) (x1 : Vec Ideal S128x128 .f32) (j : S5000x128.Idx) :
    k2_pay1 x0 x1 j = ∑ k : Fin 128, x0 (ix2 (j 0) k) * x1 (ix2 k (j 1)) := by
  unfold k2_pay1
  rw [shapeCast_self]
  exact Cert.Gcn.matmul_bf16_apply (M := 5000) (K := 128) (N := 128) x0 x1 _ j

/-- What grid point `t` writes back is block `t` of the whole product. -/
theorem flushed2 (c : Dev nD) (t : Fin cfg2.N) :
    (dat2 V c).flushed 2 t = ((cfg2.win 2).blk t).view.read (Elt Ideal) (rowsTimes (M := 100000) (K := 128) (N := 128) (V c main_v44) (V c main_arg4)) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  obtain ⟨e0, e1, e2, e3, e4, e5⟩ := idx2 t
  funext j
  have h0 : ∀ k : Fin 128, ((cfg2.win 0).blk t).view.emb (ix2 (j 0) k) = ix2 ((((cfg2.win 2).blk t).view.emb j) 0) k := by
    intro k; funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ∀ k : Fin 128, ((cfg2.win 1).blk t).view.emb (ix2 k (j 1)) = ix2 k ((((cfg2.win 2).blk t).view.emb j) 1) := by
    intro k; funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  refine (pay2_apply (iblk2 V c 0 t) (iblk2 V c 1 t) j).trans ?_
  exact rows_block (V c main_v44) (V c main_arg4) (iblk2 V c 0 t) (iblk2 V c 1 t) j (((cfg2.win 2).blk t).view.emb j)
    (fun k => congrArg (V c main_v44) (h0 k)) (fun k => congrArg (V c main_arg4) (h1 k))

/-- An entry of the output array is in point `t`'s block iff each coordinate is in the block's range. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Row `r` of the output is written by grid point `r / 5000`: the twenty blocks tile the array. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  refine ⟨Fin.cast N_2.symm ⟨(i 0).val / 5000, by omega⟩, flush2_2 _, ?_⟩
  rw [mem_blk2]
  obtain ⟨-, -, -, -, e4, e5⟩ := idx2 (Fin.cast N_2.symm ⟨(i 0).val / 5000, by omega⟩)
  have e4' : win2_2.index (Fin.cast N_2.symm ⟨(i 0).val / 5000, by omega⟩) (0 : Fin 2) = (i 0).val / 5000 := e4
  intro a
  match a with
  | ⟨0, _⟩ => show win2_2.index _ (0 : Fin 2) * 5000 ≤ (i 0).val ∧ (i 0).val < win2_2.index _ (0 : Fin 2) * 5000 + 5000; omega
  | ⟨1, _⟩ => show win2_2.index _ (1 : Fin 2) * 128 ≤ (i 1).val ∧ (i 1).val < win2_2.index _ (1 : Fin 2) * 128 + 128; omega

/-- After launch 2 its output array is the product of its two input arrays as the launch found them. -/
theorem value2 (c : Dev nD) :
    (dat2 V c).arrAt 2 cfg2.N = rowsTimes (M := 100000) (K := 128) (N := 128) (V c main_v44) (V c main_arg4) :=
  (dat2 V c).arrAt_eq_of_cover 2 _ (fun t _ => flushed2 V c t) (cover2)

/-! ## Launch 3: the bias added to every row and the result clipped at zero, twenty blocks of 5000 rows -/

/-- The block coordinates of launch 3's three windows at a grid point: the two row-blocked windows are at block row `t`,
    the bias vector is one block. -/
theorem idx3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- The body's stored value at an entry of the block: the block's entry plus the bias at its column, clipped at zero. -/
theorem pay3_apply (b : Vec Ideal S128 .f32) (x : Vec Ideal S5000x128 .f32) (p : Fin 5000) (q : Fin 128) :
    k3_pay1 b x (ix2 p q) = max (x (ix2 p q) + b (ix1 q)) (Ideal.ofBits .f32 0x00000000#32) := by
  unfold k3_pay1
  exact Cert.Gcn.biasRelu_vec_apply (M := 5000) (N := 128) x b _ _ _ p q

/-- What grid point `t` writes back is block `t` of the whole biased and clipped array. -/
theorem flushed3 (c : Dev nD) (t : Fin cfg3.N) :
    (dat3 V c).flushed 2 t = ((cfg3.win 2).blk t).view.read (Elt Ideal) (biasRelu (M := 100000) (N := 128) (V c main_v58) (V c main_arg5)) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S128) hz1]
  obtain ⟨e0, e1, e2, e3, e4⟩ := idx3 t
  funext j
  obtain ⟨p, q, rfl⟩ : ∃ (p : Fin 5000) (q : Fin 128), j = ix2 p q := ⟨j 0, j 1, eq_ix2 j⟩
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have h1 : ((cfg3.win 1).blk t).view.emb (ix1 q) = ix1 ((((cfg3.win 2).blk t).view.emb (ix2 p q)) 1) := by
    funext a; apply Fin.ext
    match a with
    | ⟨0, _⟩ => show win3_1.index t (0 : Fin 1) * 128 + 1 * q.val = win3_2.index t (1 : Fin 2) * 128 + 1 * q.val; omega
  refine (pay3_apply (iblk3 V c 1 t) (iblk3 V c 0 t) p q).trans ?_
  exact bias_block (V c main_v58) (V c main_arg5) (iblk3 V c 0 t) (iblk3 V c 1 t) p q (((cfg3.win 2).blk t).view.emb (ix2 p q))
    (congrArg (V c main_v58) h0) (congrArg (V c main_arg5) h1)

/-- An entry of the output array is in point `t`'s block iff each coordinate is in the block's range. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v59).slice (win3_2.rect t)).set ↔ _
  rw [View.set_slice_whole, Rect.mem_set_unit]
  exact Iff.rfl

/-- Row `r` of the output is written by grid point `r / 5000`: the twenty blocks tile the array. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  refine ⟨Fin.cast N_3.symm ⟨(i 0).val / 5000, by omega⟩, flush3_2 _, ?_⟩
  rw [mem_blk3]
  obtain ⟨-, -, -, e4, e5⟩ := idx3 (Fin.cast N_3.symm ⟨(i 0).val / 5000, by omega⟩)
  have e4' : win3_2.index (Fin.cast N_3.symm ⟨(i 0).val / 5000, by omega⟩) (0 : Fin 2) = (i 0).val / 5000 := e4
  intro a
  match a with
  | ⟨0, _⟩ => show win3_2.index _ (0 : Fin 2) * 5000 ≤ (i 0).val ∧ (i 0).val < win3_2.index _ (0 : Fin 2) * 5000 + 5000; omega
  | ⟨1, _⟩ => show win3_2.index _ (1 : Fin 2) * 128 ≤ (i 1).val ∧ (i 1).val < win3_2.index _ (1 : Fin 2) * 128 + 128; omega

/-- After launch 3 its output array is its input array biased and clipped, both as the launch found them. -/
theorem value3 (c : Dev nD) :
    (dat3 V c).arrAt 2 cfg3.N = biasRelu (M := 100000) (N := 128) (V c main_v58) (V c main_arg5) :=
  (dat3 V c).arrAt_eq_of_cover 2 _ (fun t _ => flushed3 V c t) (cover3)

/-! ## Launch 4: a matrix product, twenty blocks of 5000 rows -/

/-- The block coordinates of launch 4's three windows at a grid point: the two row-blocked windows are at block row `t`,
    the weight matrix is one block. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's stored value at an entry of the block: the row of the input block times the column of the weights. -/
theorem pay4_apply (x0 : Vec Ideal S5000x128 .f32) (x1 : Vec Ideal S128x128 .f32) (j : S5000x128.Idx) :
    k4_pay1 x0 x1 j = ∑ k : Fin 128, x0 (ix2 (j 0) k) * x1 (ix2 k (j 1)) := by
  unfold k4_pay1
  rw [shapeCast_self]
  exact Cert.Gcn.matmul_bf16_apply (M := 5000) (K := 128) (N := 128) x0 x1 _ j

/-- What grid point `t` writes back is block `t` of the whole product. -/
theorem flushed4 (c : Dev nD) (t : Fin cfg4.N) :
    (dat4 V c).flushed 2 t = ((cfg4.win 2).blk t).view.read (Elt Ideal) (rowsTimes (M := 100000) (K := 128) (N := 128) (V c main_v59) (V c main_arg6)) := by
  show (cfg4.win 2).cut (grid4.coords t) ((dat4 V c).after 2 t) = _
  rw [after4_2]
  unfold out4_2
  rw [View.canon_unit_zero hz2]
  simp only [View.ld_unit_zero (S := S5000x128) hz2, View.ld_unit_zero (S := S128x128) hz2]
  obtain ⟨e0, e1, e2, e3, e4, e5⟩ := idx4 t
  funext j
  have h0 : ∀ k : Fin 128, ((cfg4.win 0).blk t).view.emb (ix2 (j 0) k) = ix2 ((((cfg4.win 2).blk t).view.emb j) 0) k := by
    intro k; funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ∀ k : Fin 128, ((cfg4.win 1).blk t).view.emb (ix2 k (j 1)) = ix2 k ((((cfg4.win 2).blk t).view.emb j) 1) := by
    intro k; funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  refine (pay4_apply (iblk4 V c 0 t) (iblk4 V c 1 t) j).trans ?_
  exact rows_block (V c main_v59) (V c main_arg6) (iblk4 V c 0 t) (iblk4 V c 1 t) j (((cfg4.win 2).blk t).view.emb j)
    (fun k => congrArg (V c main_v59) (h0 k)) (fun k => congrArg (V c main_arg6) (h1 k))

/-- An entry of the output array is in point `t`'s block iff each coordinate is in the block's range. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v60).slice (win4_2.rect t)).set ↔ _
  rw [View.set_slice_whole, Rect.mem_set_unit]
  exact Iff.rfl

/-- Row `r` of the output is written by grid point `r / 5000`: the twenty blocks tile the array. -/
theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  refine ⟨Fin.cast N_4.symm ⟨(i 0).val / 5000, by omega⟩, flush4_2 _, ?_⟩
  rw [mem_blk4]
  obtain ⟨-, -, -, -, e4, e5⟩ := idx4 (Fin.cast N_4.symm ⟨(i 0).val / 5000, by omega⟩)
  have e4' : win4_2.index (Fin.cast N_4.symm ⟨(i 0).val / 5000, by omega⟩) (0 : Fin 2) = (i 0).val / 5000 := e4
  intro a
  match a with
  | ⟨0, _⟩ => show win4_2.index _ (0 : Fin 2) * 5000 ≤ (i 0).val ∧ (i 0).val < win4_2.index _ (0 : Fin 2) * 5000 + 5000; omega
  | ⟨1, _⟩ => show win4_2.index _ (1 : Fin 2) * 128 ≤ (i 1).val ∧ (i 1).val < win4_2.index _ (1 : Fin 2) * 128 + 128; omega

/-- After launch 4 its output array is the product of its two input arrays as the launch found them. -/
theorem value4 (c : Dev nD) :
    (dat4 V c).arrAt 2 cfg4.N = rowsTimes (M := 100000) (K := 128) (N := 128) (V c main_v59) (V c main_arg6) :=
  (dat4 V c).arrAt_eq_of_cover 2 _ (fun t _ => flushed4 V c t) (cover4)

/-! ## Launch 5: the bias added to every row and the result clipped at zero, twenty blocks of 5000 rows -/

/-- The block coordinates of launch 5's three windows at a grid point: the two row-blocked windows are at block row `t`,
    the bias vector is one block. -/
theorem idx5 : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- The body's stored value at an entry of the block: the block's entry plus the bias at its column, clipped at zero. -/
theorem pay5_apply (b : Vec Ideal S128 .f32) (x : Vec Ideal S5000x128 .f32) (p : Fin 5000) (q : Fin 128) :
    k5_pay1 b x (ix2 p q) = max (x (ix2 p q) + b (ix1 q)) (Ideal.ofBits .f32 0x00000000#32) := by
  unfold k5_pay1
  exact Cert.Gcn.biasRelu_vec_apply (M := 5000) (N := 128) x b _ _ _ p q

/-- What grid point `t` writes back is block `t` of the whole biased and clipped array. -/
theorem flushed5 (c : Dev nD) (t : Fin cfg5.N) :
    (dat5 V c).flushed 2 t = ((cfg5.win 2).blk t).view.read (Elt Ideal) (biasRelu (M := 100000) (N := 128) (V c main_v73) (V c main_arg7)) := by
  show (cfg5.win 2).cut (grid5.coords t) ((dat5 V c).after 2 t) = _
  rw [after5_2]
  unfold out5_2
  rw [View.canon_unit_zero hz2]
  simp only [View.ld_unit_zero (S := S5000x128) hz2, View.ld_unit_zero (S := S128) hz1]
  obtain ⟨e0, e1, e2, e3, e4⟩ := idx5 t
  funext j
  obtain ⟨p, q, rfl⟩ : ∃ (p : Fin 5000) (q : Fin 128), j = ix2 p q := ⟨j 0, j 1, eq_ix2 j⟩
  have h0 : ((cfg5.win 0).blk t).view.emb (ix2 p q) = ((cfg5.win 2).blk t).view.emb (ix2 p q) := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 128 + 1 * q.val = win5_2.index t (1 : Fin 2) * 128 + 1 * q.val; omega
  have h1 : ((cfg5.win 1).blk t).view.emb (ix1 q) = ix1 ((((cfg5.win 2).blk t).view.emb (ix2 p q)) 1) := by
    funext a; apply Fin.ext
    match a with
    | ⟨0, _⟩ => show win5_1.index t (0 : Fin 1) * 128 + 1 * q.val = win5_2.index t (1 : Fin 2) * 128 + 1 * q.val; omega
  refine (pay5_apply (iblk5 V c 1 t) (iblk5 V c 0 t) p q).trans ?_
  exact bias_block (V c main_v73) (V c main_arg7) (iblk5 V c 0 t) (iblk5 V c 1 t) p q (((cfg5.win 2).blk t).view.emb (ix2 p q))
    (congrArg (V c main_v73) h0) (congrArg (V c main_arg7) h1)

/-- An entry of the output array is in point `t`'s block iff each coordinate is in the block's range. -/
theorem mem_blk5 (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v74).slice (win5_2.rect t)).set ↔ _
  rw [View.set_slice_whole, Rect.mem_set_unit]
  exact Iff.rfl

/-- Row `r` of the output is written by grid point `r / 5000`: the twenty blocks tile the array. -/
theorem cover5 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  refine ⟨Fin.cast N_5.symm ⟨(i 0).val / 5000, by omega⟩, flush5_2 _, ?_⟩
  rw [mem_blk5]
  obtain ⟨-, -, -, e4, e5⟩ := idx5 (Fin.cast N_5.symm ⟨(i 0).val / 5000, by omega⟩)
  have e4' : win5_2.index (Fin.cast N_5.symm ⟨(i 0).val / 5000, by omega⟩) (0 : Fin 2) = (i 0).val / 5000 := e4
  intro a
  match a with
  | ⟨0, _⟩ => show win5_2.index _ (0 : Fin 2) * 5000 ≤ (i 0).val ∧ (i 0).val < win5_2.index _ (0 : Fin 2) * 5000 + 5000; omega
  | ⟨1, _⟩ => show win5_2.index _ (1 : Fin 2) * 128 ≤ (i 1).val ∧ (i 1).val < win5_2.index _ (1 : Fin 2) * 128 + 128; omega

/-- After launch 5 its output array is its input array biased and clipped, both as the launch found them. -/
theorem value5 (c : Dev nD) :
    (dat5 V c).arrAt 2 cfg5.N = biasRelu (M := 100000) (N := 128) (V c main_v73) (V c main_arg7) :=
  (dat5 V c).arrAt_eq_of_cover 2 _ (fun t _ => flushed5 V c t) (cover5)

end Cert.KernelIdeal.GcnRegions

end
-- ==== Proof.Glue.lean ====
/-
  The host operations both programs share, as four functions.

  The graph is given as a [2, 1600000] array of node numbers: row 0 the edges' sources, row 1 their destinations. A
  self-loop is added for each of the 100000 nodes, which gives 1700000 edges:
  `srcOf e` and `dstOf e` are row 0 and row 1 of e, each followed by 0, 1, …, 99999.
  `normOf e` is the weight of each edge: the number of edges arriving at a node is its degree, a node's factor is the
  reciprocal square root of its degree where the degree is positive and zero elsewhere, and an edge's weight is the
  product of its two endpoints' factors (each endpoint's factor looked up with the node number wrapped once if negative).
  `aggregate h s d n` sends the feature rows of h along the edges: edge j takes row s j of h (wrapped as above)
  scaled by n j, and the scaled rows are added up at the rows d j of an array that starts at zero.
  Each is written exactly as the operations are printed, so that a stretch of either program's host operations is one
  of these functions applied to what the stretch reads.
-/
import proofs.«136238_j68478958568087_1_alg».proof.Proof.Gen.KernelIdeal

noncomputable section

namespace Cert.Gcn

open Idealize.ShloMosaic Cert.KernelIdeal Cert.KernelIdeal.Facts₀

variable {F : FTy → Type} [FloatOps F]

/-- A row of the edge array, as a vector, followed by the node numbers 0 … 99999. -/
def endsOf (row : Fin 2 → Nat) (hrow : S2x1600000.Slices row S1x1600000) (e : IVec S2x1600000 32) : IVec S1700000 32 :=
  concatenate S1700000 0 [⟨S1600000, shapeCast S1600000 (extractStridedSlice S1x1600000 row e hrow) shapeCasts_S1x1600000_S1600000⟩,
    ⟨S100000, iotaInDim S100000 32 0⟩] concatenates_S1600000_S100000_S1700000_d0

/-- The edges' source nodes, the self-loops last. -/
def srcOf (e : IVec S2x1600000 32) : IVec S1700000 32 := endsOf ![0, 0] slices_S2x1600000_S1x1600000_0_0 e

/-- The edges' destination nodes, the self-loops last. -/
def dstOf (e : IVec S2x1600000 32) : IVec S1700000 32 := endsOf ![1, 0] slices_S2x1600000_S1x1600000_1_0 e

/-- Node numbers as a column of start indices, a negative one moved up by the number of nodes. -/
def wrapped (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Zero at every node. -/
def zeros : FVec F S100000 .f32 := broadcastInDim S100000 ![] bcast_S_S100000 (constant S_ .f32 0x00000000#32)

/-- Each node's degree: one added, from zero, for every edge arriving at it. -/
def degOf (d : IVec S1700000 32) : FVec F S100000 .f32 :=
  Host.scatterAdd scatter_S100000_S1700000x1_S1700000_n_0_0_1 (zeros (F := F))
    (broadcastInDim S1700000x1 ![0] bcast_S1700000_S1700000x1_0 d)
    (broadcastInDim S1700000 ![] bcast_S_S1700000 (constant S_ .f32 0x3F800000#32))

/-- Each node's factor: the reciprocal square root of its degree where the degree is positive, zero elsewhere. -/
def factorOf (d : IVec S1700000 32) : FVec F S100000 .f32 :=
  select (cmpf .ogt (degOf (F := F) d) (zeros (F := F))) (Host.rsqrt (degOf (F := F) d)) (zeros (F := F))

/-- Each edge's weight from the nodes' factors: the product of its endpoints' factors. -/
def weightOf (f : FVec F S100000 .f32) (s d : IVec S1700000 32) : FVec F S1700000 .f32 :=
  mulf (Host.gather gather_S100000_S1700000x1_S1700000_n_0_n_n_0_1_1 f (wrapped s))
    (Host.gather gather_S100000_S1700000x1_S1700000_n_0_n_n_0_1_1 f (wrapped d))

/-- The edges' weights from the edge array. -/
def normOf (e : IVec S2x1600000 32) : FVec F S1700000 .f32 :=
  weightOf (factorOf (F := F) (dstOf e)) (srcOf e) (dstOf e)

/-- Feature rows sent along the edges, scaled by the edges' weights given as a column, and added up at the
    destinations. -/
def aggregateCol (h : FVec F S100000x128 .f32) (s d : IVec S1700000 32) (ncol : FVec F S1700000x1 .f32) : FVec F S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf (Host.gather gather_S100000x128_S1700000x1_S1700000x128_1_0_n_n_0_1_1128 h (wrapped s))
      (broadcastInDim S1700000x128 ![0, 1] bcast_S1700000x1_S1700000x128_0_1 ncol))

/-- The edges' weights as a column. -/
def colOf (n : FVec F S1700000 .f32) : FVec F S1700000x1 .f32 :=
  broadcastInDim S1700000x1 ![0] bcast_S1700000_S1700000x1_0 n

/-- Feature rows sent along the edges, scaled by the edges' weights, and added up at the destinations. -/
def aggregate (h : FVec F S100000x128 .f32) (s d : IVec S1700000 32) (n : FVec F S1700000 .f32) : FVec F S100000x128 .f32 :=
  aggregateCol h s d (colOf n)

end Cert.Gcn

end
-- ==== Proof.Net.lean ====
/-
  The network both programs compute.

  One layer takes node features h, multiplies them by a weight matrix, sends the products along the edges (scaled by
  the edges' weights and added up at the destinations), adds a bias to every row and clips at zero. The network is
  three layers, over one graph, each with its own weights and bias.
-/
import proofs.«136238_j68478958568087_1_alg».proof.Proof.Layer
import proofs.«136238_j68478958568087_1_alg».proof.Proof.Glue

noncomputable section

namespace Cert.Gcn

open Idealize.ShloMosaic Cert.KernelIdeal

/-- One layer: project, aggregate over the graph `e`, add the bias, clip at zero. -/
def layer (h : FVec Ideal S100000x128 .f32) (e : IVec S2x1600000 32) (w : FVec Ideal S128x128 .f32)
    (b : FVec Ideal S128 .f32) : FVec Ideal S100000x128 .f32 :=
  biasRelu (M := 100000) (N := 128)
    (aggregate (F := Ideal) (rowsTimes (M := 100000) (K := 128) (N := 128) h w) (srcOf e) (dstOf e) (normOf (F := Ideal) e)) b

/-- Three layers over one graph. -/
def net (x : FVec Ideal S100000x128 .f32) (e : IVec S2x1600000 32) (w1 : FVec Ideal S128x128 .f32) (b1 : FVec Ideal S128 .f32)
    (w2 : FVec Ideal S128x128 .f32) (b2 : FVec Ideal S128 .f32) (w3 : FVec Ideal S128x128 .f32) (b3 : FVec Ideal S128 .f32) :
    FVec Ideal S100000x128 .f32 :=
  layer (layer (layer x e w1 b1) e w2 b2) e w3 b3

end Cert.Gcn

end
-- ==== Proof.LibHostPieces.lean ====
/-
  Two facts for reading a long line of host operations piece by piece.

  What a buffer holds after a line of host operations is a fold over the line. When the whole line's result is too
  large a term to compare in one step, the line can be cut at any point: the fold over a concatenation is the fold
  over the second part, started from what the first part leaves (`after_append`); with `List.take_append_drop` this
  cuts a line given as one list into stretches whose results are small terms, each read from any incoming contents.

  An operation spelt over typed references moves its operands from each buffer's own type to the tensor type it
  carries and its result back; these transports are identities, and a value moved to a buffer's type and back is the
  value (`ofBuf_toBuf`). Rewriting with it before comparing a stretch's result with a closed term removes the pairs
  of transports that otherwise stand between the two sides. Both facts hold for any topology, signature and element
  values.
-/
import Idealize.ShloMosaic.Lib.StableHlo.Run

namespace Idealize.ShloMosaic.HostPieces

open Idealize.ShloMosaic Idealize.ShloMosaic.StableHlo

variable {τ : Topo} {sig : RefSig} {Val : EltTy → Type}

/-- Running two stretches of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line of operations cut at position `n`: the part after `n` run from what the first `n` leave. -/
theorem after_take_drop (n : ℕ) (l : List (HloOp τ sig Val)) (V : Valuation τ sig Val) :
    after l V = after (l.drop n) (after (l.take n) V) := by
  rw [← after_append, List.take_append_drop]

/-- Contents moved to a buffer's own type and back are unchanged. -/
theorem ofBuf_toBuf {T : BufTy} (x : TRef sig T) (v : T.Contents Val) : x.ofBuf (x.toBuf v) = v := by
  obtain ⟨r, rfl, _, _⟩ := x
  rfl

end Idealize.ShloMosaic.HostPieces
-- ==== Proof.LibResultsRest.lean ====
/-
  A finishing step for reading a line of host operations.

  Reading what a buffer holds after a line of operations is a rewriting computation. Done as one simplification
  pass it does not reach the operands of a concatenation, which sit inside a list of (shape, array) pairs; what is
  left there — a short chain of results at an operand's reference — is finished here by rewriting with each
  operation's result at its own reference and at any other reference, one at a time.
-/
import Idealize.ShloMosaic.Lib.StableHlo.Run

namespace Idealize.ShloMosaic.StableHlo

/-- Rewrites every remaining operation result, at its own reference or at another one, until none is left. -/
macro "after_results_rest" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.KernelHost.lean ====
/-
  What the idealized kernel program's result buffer holds at the end: the network of its arguments.

  The program's buffer contents are followed from boundary to boundary. A stretch of host operations, read from any
  contents it starts from, is one of the shared functions applied to a few of those contents (the index vectors, the
  nodes' factors, the edges' weights, one aggregation); a launch leaves in its output array the matrix product or the
  bias step of the arrays it found; and a buffer that a stretch does not write, or that is not among a launch's
  arrays, holds across it what it held before. Chaining these from the launch memory to the last boundary gives the
  result buffer as three layers of the arguments.
-/
import proofs.«136238_j68478958568087_1_alg».proof.Proof.Gen.KernelIdeal.Frame
import proofs.«136238_j68478958568087_1_alg».proof.Proof.KernelRegions
import proofs.«136238_j68478958568087_1_alg».proof.Proof.Net
import proofs.«136238_j68478958568087_1_alg».proof.Proof.LibHostPieces
import proofs.«136238_j68478958568087_1_alg».proof.Proof.LibResultsRest
import Idealize.ShloMosaic.PureOps.Ideal

set_option maxRecDepth 16384

noncomputable section

namespace Cert.KernelIdeal.GcnHost

open Cert.KernelIdeal Cert.KernelIdeal.Gen Cert.KernelIdeal.GcnRegions Cert.Gcn
open Idealize.ShloMosaic Idealize.ShloMosaic.TcCoe Idealize.SL.Sem Idealize.ShloMosaic.StableHlo Idealize.ShloMosaic.HostPieces

/-- A buffer that no operation of a host stretch writes holds after the stretch what it held before. -/
macro "untouched" : tactic => `(tactic| exact StableHlo.after_of_forall_not_mem _ _ (List.forall_iff_forall_mem.mp (by
  simp only [hostOps0, hostOps0_1, hostOps0_2, hostOps1, hostOps3, hostOps5, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

/-! ## The host stretches, from any contents -/

section Stretches

variable (V : Valuation τ sig (Elt Ideal))

/-- The first stretch builds the edges' source nodes -/
theorem stretch_src : after hostOps0 V (Proc.devRef .tc main_v3) = srcOf (V (Proc.devRef .tc main_arg1)) := by
  after_results_simp
  after_results_rest
  rfl
/-- and destination nodes from the edge array, -/
theorem stretch_dst : after hostOps0 V (Proc.devRef .tc main_v6) = dstOf (V (Proc.devRef .tc main_arg1)) := by
  after_results_simp
  after_results_rest
  rfl
/-- where the degrees are positive, -/
theorem stretch_pos : after hostOps0 V (Proc.devRef .tc main_v12) = cmpf .ogt (degOf (F := Ideal) (dstOf (V (Proc.devRef .tc main_arg1)))) (zeros (F := Ideal)) := by
  after_results_simp
  after_results_rest
  rfl
/-- their reciprocal square roots, -/
theorem stretch_rsqrt : after hostOps0 V (Proc.devRef .tc main_v13) = Host.rsqrt (degOf (F := Ideal) (dstOf (V (Proc.devRef .tc main_arg1)))) := by
  after_results_simp
  after_results_rest
  rfl
/-- and a zero. -/
theorem stretch_zero : after hostOps0 V (Proc.devRef .tc main_cst_2) = constant (F := Ideal) S_ .f32 0x00000000#32 := by
  after_results_simp

/-- The second stretch selects between the two: the nodes' factors. -/
theorem stretch_where : after hostOps0_1 V (Proc.devRef .tc main_v14)
    = select (V (Proc.devRef .tc main_v12)) (V (Proc.devRef .tc main_v13)) (broadcastInDim S100000 ![] Facts₀.bcast_S_S100000 (V (Proc.devRef .tc main_cst_2))) := by
  after_results_simp
  simp only [ofBuf_toBuf]
  rfl

/-- The third stretch multiplies the endpoints' factors: the edges' weights. -/
theorem stretch_weight : after hostOps0_2 V (Proc.devRef .tc main_v29)
    = weightOf (F := Ideal) (V (Proc.devRef .tc main_v14)) (V (Proc.devRef .tc main_v3)) (V (Proc.devRef .tc main_v6)) := by
  after_results_simp
  rfl

/-- The stretch after the first launch is one aggregation of that launch's output, -/
theorem stretch_agg1 : after hostOps1 V (Proc.devRef .tc main_v43)
    = aggregate (F := Ideal) (V (Proc.devRef .tc main_v30)) (V (Proc.devRef .tc main_v3)) (V (Proc.devRef .tc main_v6)) (V (Proc.devRef .tc main_v29)) := by
  after_results_simp
  rfl
/-- the one after the third launch of the third's, -/
theorem stretch_agg3 : after hostOps3 V (Proc.devRef .tc main_v58)
    = aggregate (F := Ideal) (V (Proc.devRef .tc main_v45)) (V (Proc.devRef .tc main_v3)) (V (Proc.devRef .tc main_v6)) (V (Proc.devRef .tc main_v29)) := by
  after_results_simp
  rfl
/-- and the one after the fifth of the fifth's. -/
theorem stretch_agg5 : after hostOps5 V (Proc.devRef .tc main_v73)
    = aggregate (F := Ideal) (V (Proc.devRef .tc main_v60)) (V (Proc.devRef .tc main_v3)) (V (Proc.devRef .tc main_v6)) (V (Proc.devRef .tc main_v29)) := by
  after_results_simp
  rfl

end Stretches

/-! ## The boundaries -/

variable (m : (ℓ : Loc nD τ sig) → Buf (Elt Ideal) ℓ) (ρ : Dev nD → PrngReg) (c : Dev nD)

/-- At the first launch the index vectors and the edges' weights are those of the edge array. -/
theorem W3_src : W3 m ρ c (Proc.devRef .tc main_v3) = srcOf (m ((c : Thread nD τ).loc main_arg1)) := by
  show after hostOps0_2 (after hostOps0_1 (after hostOps0 (W0 m ρ c))) (Proc.devRef .tc main_v3) = _
  rw [show after hostOps0_2 (after hostOps0_1 (after hostOps0 (W0 m ρ c))) (Proc.devRef .tc main_v3) = after hostOps0_1 (after hostOps0 (W0 m ρ c)) (Proc.devRef .tc main_v3) from by untouched,
    show after hostOps0_1 (after hostOps0 (W0 m ρ c)) (Proc.devRef .tc main_v3) = after hostOps0 (W0 m ρ c) (Proc.devRef .tc main_v3) from by untouched, stretch_src]
theorem W3_dst : W3 m ρ c (Proc.devRef .tc main_v6) = dstOf (m ((c : Thread nD τ).loc main_arg1)) := by
  show after hostOps0_2 (after hostOps0_1 (after hostOps0 (W0 m ρ c))) (Proc.devRef .tc main_v6) = _
  rw [show after hostOps0_2 (after hostOps0_1 (after hostOps0 (W0 m ρ c))) (Proc.devRef .tc main_v6) = after hostOps0_1 (after hostOps0 (W0 m ρ c)) (Proc.devRef .tc main_v6) from by untouched,
    show after hostOps0_1 (after hostOps0 (W0 m ρ c)) (Proc.devRef .tc main_v6) = after hostOps0 (W0 m ρ c) (Proc.devRef .tc main_v6) from by untouched, stretch_dst]
theorem W3_norm : W3 m ρ c (Proc.devRef .tc main_v29) = normOf (F := Ideal) (m ((c : Thread nD τ).loc main_arg1)) := by
  show after hostOps0_2 (after hostOps0_1 (after hostOps0 (W0 m ρ c))) (Proc.devRef .tc main_v29) = _
  rw [stretch_weight, stretch_where, stretch_pos, stretch_rsqrt, stretch_zero,
    show after hostOps0_1 (after hostOps0 (W0 m ρ c)) (Proc.devRef .tc main_v3) = after hostOps0 (W0 m ρ c) (Proc.devRef .tc main_v3) from by untouched,
    show after hostOps0_1 (after hostOps0 (W0 m ρ c)) (Proc.devRef .tc main_v6) = after hostOps0 (W0 m ρ c) (Proc.devRef .tc main_v6) from by untouched,
    stretch_src, stretch_dst]
  rfl

/-- No stretch before the first launch writes an argument. -/
theorem W3_main_arg0 : W3 m ρ c (Proc.devRef .tc main_arg0) = m ((c : Thread nD τ).loc main_arg0) :=
  Eq.trans (by untouched : W3 m ρ c (Proc.devRef .tc main_arg0) = W2 m ρ c (Proc.devRef .tc main_arg0))
    (Eq.trans (by untouched : W2 m ρ c (Proc.devRef .tc main_arg0) = W1 m ρ c (Proc.devRef .tc main_arg0)) (by untouched : W1 m ρ c (Proc.devRef .tc main_arg0) = m ((c : Thread nD τ).loc main_arg0)))
theorem W3_main_arg2 : W3 m ρ c (Proc.devRef .tc main_arg2) = m ((c : Thread nD τ).loc main_arg2) :=
  Eq.trans (by untouched : W3 m ρ c (Proc.devRef .tc main_arg2) = W2 m ρ c (Proc.devRef .tc main_arg2))
    (Eq.trans (by untouched : W2 m ρ c (Proc.devRef .tc main_arg2) = W1 m ρ c (Proc.devRef .tc main_arg2)) (by untouched : W1 m ρ c (Proc.devRef .tc main_arg2) = m ((c : Thread nD τ).loc main_arg2)))
theorem W3_main_arg3 : W3 m ρ c (Proc.devRef .tc main_arg3) = m ((c : Thread nD τ).loc main_arg3) :=
  Eq.trans (by untouched : W3 m ρ c (Proc.devRef .tc main_arg3) = W2 m ρ c (Proc.devRef .tc main_arg3))
    (Eq.trans (by untouched : W2 m ρ c (Proc.devRef .tc main_arg3) = W1 m ρ c (Proc.devRef .tc main_arg3)) (by untouched : W1 m ρ c (Proc.devRef .tc main_arg3) = m ((c : Thread nD τ).loc main_arg3)))
theorem W3_main_arg4 : W3 m ρ c (Proc.devRef .tc main_arg4) = m ((c : Thread nD τ).loc main_arg4) :=
  Eq.trans (by untouched : W3 m ρ c (Proc.devRef .tc main_arg4) = W2 m ρ c (Proc.devRef .tc main_arg4))
    (Eq.trans (by untouched : W2 m ρ c (Proc.devRef .tc main_arg4) = W1 m ρ c (Proc.devRef .tc main_arg4)) (by untouched : W1 m ρ c (Proc.devRef .tc main_arg4) = m ((c : Thread nD τ).loc main_arg4)))
theorem W3_main_arg5 : W3 m ρ c (Proc.devRef .tc main_arg5) = m ((c : Thread nD τ).loc main_arg5) :=
  Eq.trans (by untouched : W3 m ρ c (Proc.devRef .tc main_arg5) = W2 m ρ c (Proc.devRef .tc main_arg5))
    (Eq.trans (by untouched : W2 m ρ c (Proc.devRef .tc main_arg5) = W1 m ρ c (Proc.devRef .tc main_arg5)) (by untouched : W1 m ρ c (Proc.devRef .tc main_arg5) = m ((c : Thread nD τ).loc main_arg5)))
theorem W3_main_arg6 : W3 m ρ c (Proc.devRef .tc main_arg6) = m ((c : Thread nD τ).loc main_arg6) :=
  Eq.trans (by untouched : W3 m ρ c (Proc.devRef .tc main_arg6) = W2 m ρ c (Proc.devRef .tc main_arg6))
    (Eq.trans (by untouched : W2 m ρ c (Proc.devRef .tc main_arg6) = W1 m ρ c (Proc.devRef .tc main_arg6)) (by untouched : W1 m ρ c (Proc.devRef .tc main_arg6) = m ((c : Thread nD τ).loc main_arg6)))
theorem W3_main_arg7 : W3 m ρ c (Proc.devRef .tc main_arg7) = m ((c : Thread nD τ).loc main_arg7) :=
  Eq.trans (by untouched : W3 m ρ c (Proc.devRef .tc main_arg7) = W2 m ρ c (Proc.devRef .tc main_arg7))
    (Eq.trans (by untouched : W2 m ρ c (Proc.devRef .tc main_arg7) = W1 m ρ c (Proc.devRef .tc main_arg7)) (by untouched : W1 m ρ c (Proc.devRef .tc main_arg7) = m ((c : Thread nD τ).loc main_arg7)))

/-! ### The arguments where the later launches read them

An argument is not among an earlier launch's arrays and no stretch writes it. -/

theorem W5_main_arg3 : W5 m ρ c (Proc.devRef .tc main_arg3) = m ((c : Thread nD τ).loc main_arg3) :=
  Eq.trans (by untouched : W5 m ρ c (Proc.devRef .tc main_arg3) = W4 m ρ c (Proc.devRef .tc main_arg3)) ((W4_of_ne m ρ c main_arg3 (by decide)).trans (W3_main_arg3 m ρ c))
theorem W5_main_arg4 : W5 m ρ c (Proc.devRef .tc main_arg4) = m ((c : Thread nD τ).loc main_arg4) :=
  Eq.trans (by untouched : W5 m ρ c (Proc.devRef .tc main_arg4) = W4 m ρ c (Proc.devRef .tc main_arg4)) ((W4_of_ne m ρ c main_arg4 (by decide)).trans (W3_main_arg4 m ρ c))
theorem W5_main_arg5 : W5 m ρ c (Proc.devRef .tc main_arg5) = m ((c : Thread nD τ).loc main_arg5) :=
  Eq.trans (by untouched : W5 m ρ c (Proc.devRef .tc main_arg5) = W4 m ρ c (Proc.devRef .tc main_arg5)) ((W4_of_ne m ρ c main_arg5 (by decide)).trans (W3_main_arg5 m ρ c))
theorem W5_main_arg6 : W5 m ρ c (Proc.devRef .tc main_arg6) = m ((c : Thread nD τ).loc main_arg6) :=
  Eq.trans (by untouched : W5 m ρ c (Proc.devRef .tc main_arg6) = W4 m ρ c (Proc.devRef .tc main_arg6)) ((W4_of_ne m ρ c main_arg6 (by decide)).trans (W3_main_arg6 m ρ c))
theorem W5_main_arg7 : W5 m ρ c (Proc.devRef .tc main_arg7) = m ((c : Thread nD τ).loc main_arg7) :=
  Eq.trans (by untouched : W5 m ρ c (Proc.devRef .tc main_arg7) = W4 m ρ c (Proc.devRef .tc main_arg7)) ((W4_of_ne m ρ c main_arg7 (by decide)).trans (W3_main_arg7 m ρ c))
theorem W6_main_arg4 : W6 m ρ c (Proc.devRef .tc main_arg4) = m ((c : Thread nD τ).loc main_arg4) :=
  (W6_of_ne m ρ c main_arg4 (by decide)).trans (W5_main_arg4 m ρ c)
theorem W7_main_arg5 : W7 m ρ c (Proc.devRef .tc main_arg5) = m ((c : Thread nD τ).loc main_arg5) :=
  (W7_of_ne m ρ c main_arg5 (by decide)).trans ((W6_of_ne m ρ c main_arg5 (by decide)).trans (W5_main_arg5 m ρ c))
theorem W7_main_arg6 : W7 m ρ c (Proc.devRef .tc main_arg6) = m ((c : Thread nD τ).loc main_arg6) :=
  (W7_of_ne m ρ c main_arg6 (by decide)).trans ((W6_of_ne m ρ c main_arg6 (by decide)).trans (W5_main_arg6 m ρ c))
theorem W7_main_arg7 : W7 m ρ c (Proc.devRef .tc main_arg7) = m ((c : Thread nD τ).loc main_arg7) :=
  (W7_of_ne m ρ c main_arg7 (by decide)).trans ((W6_of_ne m ρ c main_arg7 (by decide)).trans (W5_main_arg7 m ρ c))
theorem W8_main_arg5 : W8 m ρ c (Proc.devRef .tc main_arg5) = m ((c : Thread nD τ).loc main_arg5) :=
  Eq.trans (by untouched : W8 m ρ c (Proc.devRef .tc main_arg5) = W7 m ρ c (Proc.devRef .tc main_arg5)) (W7_main_arg5 m ρ c)
theorem W8_main_arg6 : W8 m ρ c (Proc.devRef .tc main_arg6) = m ((c : Thread nD τ).loc main_arg6) :=
  Eq.trans (by untouched : W8 m ρ c (Proc.devRef .tc main_arg6) = W7 m ρ c (Proc.devRef .tc main_arg6)) (W7_main_arg6 m ρ c)
theorem W8_main_arg7 : W8 m ρ c (Proc.devRef .tc main_arg7) = m ((c : Thread nD τ).loc main_arg7) :=
  Eq.trans (by untouched : W8 m ρ c (Proc.devRef .tc main_arg7) = W7 m ρ c (Proc.devRef .tc main_arg7)) (W7_main_arg7 m ρ c)
theorem W9_main_arg6 : W9 m ρ c (Proc.devRef .tc main_arg6) = m ((c : Thread nD τ).loc main_arg6) :=
  (W9_of_ne m ρ c main_arg6 (by decide)).trans (W8_main_arg6 m ρ c)
theorem W10_main_arg7 : W10 m ρ c (Proc.devRef .tc main_arg7) = m ((c : Thread nD τ).loc main_arg7) :=
  (W10_of_ne m ρ c main_arg7 (by decide)).trans ((W9_of_ne m ρ c main_arg7 (by decide)).trans (W8_main_arg7 m ρ c))
theorem W11_main_arg7 : W11 m ρ c (Proc.devRef .tc main_arg7) = m ((c : Thread nD τ).loc main_arg7) :=
  Eq.trans (by untouched : W11 m ρ c (Proc.devRef .tc main_arg7) = W10 m ρ c (Proc.devRef .tc main_arg7)) (W10_main_arg7 m ρ c)

/-! ### The index vectors and the edges' weights where the three aggregations read them -/

theorem W4_src : W4 m ρ c (Proc.devRef .tc main_v3) = srcOf (m ((c : Thread nD τ).loc main_arg1)) := (W4_of_ne m ρ c main_v3 (by decide)).trans (W3_src m ρ c)
theorem W4_dst : W4 m ρ c (Proc.devRef .tc main_v6) = dstOf (m ((c : Thread nD τ).loc main_arg1)) := (W4_of_ne m ρ c main_v6 (by decide)).trans (W3_dst m ρ c)
theorem W4_norm : W4 m ρ c (Proc.devRef .tc main_v29) = normOf (F := Ideal) (m ((c : Thread nD τ).loc main_arg1)) := (W4_of_ne m ρ c main_v29 (by decide)).trans (W3_norm m ρ c)
theorem W7_src : W7 m ρ c (Proc.devRef .tc main_v3) = srcOf (m ((c : Thread nD τ).loc main_arg1)) :=
  (W7_of_ne m ρ c main_v3 (by decide)).trans ((W6_of_ne m ρ c main_v3 (by decide)).trans
    (Eq.trans (by untouched : W5 m ρ c (Proc.devRef .tc main_v3) = W4 m ρ c (Proc.devRef .tc main_v3)) (W4_src m ρ c)))
theorem W7_dst : W7 m ρ c (Proc.devRef .tc main_v6) = dstOf (m ((c : Thread nD τ).loc main_arg1)) :=
  (W7_of_ne m ρ c main_v6 (by decide)).trans ((W6_of_ne m ρ c main_v6 (by decide)).trans
    (Eq.trans (by untouched : W5 m ρ c (Proc.devRef .tc main_v6) = W4 m ρ c (Proc.devRef .tc main_v6)) (W4_dst m ρ c)))
theorem W7_norm : W7 m ρ c (Proc.devRef .tc main_v29) = normOf (F := Ideal) (m ((c : Thread nD τ).loc main_arg1)) :=
  (W7_of_ne m ρ c main_v29 (by decide)).trans ((W6_of_ne m ρ c main_v29 (by decide)).trans
    (Eq.trans (by untouched : W5 m ρ c (Proc.devRef .tc main_v29) = W4 m ρ c (Proc.devRef .tc main_v29)) (W4_norm m ρ c)))
theorem W10_src : W10 m ρ c (Proc.devRef .tc main_v3) = srcOf (m ((c : Thread nD τ).loc main_arg1)) :=
  (W10_of_ne m ρ c main_v3 (by decide)).trans ((W9_of_ne m ρ c main_v3 (by decide)).trans
    (Eq.trans (by untouched : W8 m ρ c (Proc.devRef .tc main_v3) = W7 m ρ c (Proc.devRef .tc main_v3)) (W7_src m ρ c)))
theorem W10_dst : W10 m ρ c (Proc.devRef .tc main_v6) = dstOf (m ((c : Thread nD τ).loc main_arg1)) :=
  (W10_of_ne m ρ c main_v6 (by decide)).trans ((W9_of_ne m ρ c main_v6 (by decide)).trans
    (Eq.trans (by untouched : W8 m ρ c (Proc.devRef .tc main_v6) = W7 m ρ c (Proc.devRef .tc main_v6)) (W7_dst m ρ c)))
theorem W10_norm : W10 m ρ c (Proc.devRef .tc main_v29) = normOf (F := Ideal) (m ((c : Thread nD τ).loc main_arg1)) :=
  (W10_of_ne m ρ c main_v29 (by decide)).trans ((W9_of_ne m ρ c main_v29 (by decide)).trans
    (Eq.trans (by untouched : W8 m ρ c (Proc.devRef .tc main_v29) = W7 m ρ c (Proc.devRef .tc main_v29)) (W7_norm m ρ c)))

/-! ### The features, boundary by boundary -/

/-- After the first launch: the input features times the first weights. -/
theorem W4_feat : W4 m ρ c (Proc.devRef .tc main_v30)
    = rowsTimes (M := 100000) (K := 128) (N := 128) (m ((c : Thread nD τ).loc main_arg0)) (m ((c : Thread nD τ).loc main_arg2)) :=
  (W4_arr m ρ c 2).trans ((value0 (V3 m ρ) c).trans
    (congrArg₂ (rowsTimes (M := 100000) (K := 128) (N := 128)) (W3_main_arg0 m ρ c) (W3_main_arg2 m ρ c)))

/-- After the first aggregation and the second launch: the first layer. -/
theorem W6_feat : W6 m ρ c (Proc.devRef .tc main_v44)
    = layer (m ((c : Thread nD τ).loc main_arg0)) (m ((c : Thread nD τ).loc main_arg1)) (m ((c : Thread nD τ).loc main_arg2)) (m ((c : Thread nD τ).loc main_arg3)) := by
  refine (W6_arr m ρ c 2).trans ((value1 (V5 m ρ) c).trans ?_)
  refine congrArg₂ (biasRelu (M := 100000) (N := 128)) ?_ (W5_main_arg3 m ρ c)
  refine (stretch_agg1 (W4 m ρ c)).trans ?_
  rw [W4_feat, W4_src, W4_dst, W4_norm]

/-- After the third launch: the first layer times the second weights. -/
theorem W7_feat : W7 m ρ c (Proc.devRef .tc main_v45)
    = rowsTimes (M := 100000) (K := 128) (N := 128)
        (layer (m ((c : Thread nD τ).loc main_arg0)) (m ((c : Thread nD τ).loc main_arg1)) (m ((c : Thread nD τ).loc main_arg2)) (m ((c : Thread nD τ).loc main_arg3))) (m ((c : Thread nD τ).loc main_arg4)) :=
  (W7_arr m ρ c 2).trans ((value2 (V6 m ρ) c).trans
    (congrArg₂ (rowsTimes (M := 100000) (K := 128) (N := 128)) (W6_feat m ρ c) (W6_main_arg4 m ρ c)))

/-- After the second aggregation and the fourth launch: two layers. -/
theorem W9_feat : W9 m ρ c (Proc.devRef .tc main_v59)
    = layer (layer (m ((c : Thread nD τ).loc main_arg0)) (m ((c : Thread nD τ).loc main_arg1)) (m ((c : Thread nD τ).loc main_arg2)) (m ((c : Thread nD τ).loc main_arg3)))
        (m ((c : Thread nD τ).loc main_arg1)) (m ((c : Thread nD τ).loc main_arg4)) (m ((c : Thread nD τ).loc main_arg5)) := by
  refine (W9_arr m ρ c 2).trans ((value3 (V8 m ρ) c).trans ?_)
  refine congrArg₂ (biasRelu (M := 100000) (N := 128)) ?_ (W8_main_arg5 m ρ c)
  refine (stretch_agg3 (W7 m ρ c)).trans ?_
  rw [W7_feat, W7_src, W7_dst, W7_norm]

/-- After the fifth launch: two layers times the third weights. -/
theorem W10_feat : W10 m ρ c (Proc.devRef .tc main_v60)
    = rowsTimes (M := 100000) (K := 128) (N := 128)
        (layer (layer (m ((c : Thread nD τ).loc main_arg0)) (m ((c : Thread nD τ).loc main_arg1)) (m ((c : Thread nD τ).loc main_arg2)) (m ((c : Thread nD τ).loc main_arg3)))
          (m ((c : Thread nD τ).loc main_arg1)) (m ((c : Thread nD τ).loc main_arg4)) (m ((c : Thread nD τ).loc main_arg5))) (m ((c : Thread nD τ).loc main_arg6)) :=
  (W10_arr m ρ c 2).trans ((value4 (V9 m ρ) c).trans
    (congrArg₂ (rowsTimes (M := 100000) (K := 128) (N := 128)) (W9_feat m ρ c) (W9_main_arg6 m ρ c)))

/-- At the end: the network. -/
theorem W12_feat : W12 m ρ c (Proc.devRef .tc main_v74)
    = net (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W12_arr m ρ c 2).trans ((value5 (V11 m ρ) c).trans ?_)
  refine congrArg₂ (biasRelu (M := 100000) (N := 128)) ?_ (W11_main_arg7 m ρ c)
  refine (stretch_agg5 (W10 m ρ c)).trans ?_
  rw [W10_feat, W10_src, W10_dst, W10_norm]

end Cert.KernelIdeal.GcnHost

end
-- ==== Proof.RefValue.lean ====
/-
  What the idealized reference program's result buffer holds at the end: the network of its arguments.

  The reference is one line of 107 host operations. It is cut into nine stretches — the index vectors and the degrees;
  the selection of the nodes' factors; the edges' weights; and each of the three layers up to its bias and then its
  outlined maximum with zero — and what a buffer holds after the
  line is the last stretch's fold over what the stretches before leave. Each stretch, read from any contents, is one
  of the shared functions applied to a few of those contents, the host's dot_general being the matrix product and its
  bias-and-maximum the bias step; and a buffer a stretch does not write holds across it what it held before.
  Chaining these from the launch memory gives the result buffer as three layers of the arguments.
-/
import proofs.«136238_j68478958568087_1_alg».proof.Proof.RefRun
import proofs.«136238_j68478958568087_1_alg».proof.Proof.Net
import proofs.«136238_j68478958568087_1_alg».proof.Proof.LibHostPieces
import proofs.«136238_j68478958568087_1_alg».proof.Proof.LibResultsRest
import Idealize.ShloMosaic.PureOps.Ideal

set_option maxRecDepth 16384

noncomputable section

namespace Cert.ReferenceIdeal.GcnRef

open Cert.ReferenceIdeal Cert.ReferenceIdeal.Gen Cert.ReferenceIdeal.ValueP Cert.Gcn
open Idealize.ShloMosaic Idealize.ShloMosaic.TcCoe Idealize.SL.Sem Idealize.ShloMosaic.StableHlo Idealize.ShloMosaic.HostPieces

/-! ## The line of operations in nine stretches -/

section Pieces

variable {F : FTy → Type} [FloatOps F]

/-- The index vectors, the degrees' sign and reciprocal square roots, a zero. -/
abbrev refEnds : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The selection of the nodes' factors (an outlined call's three operations). -/
abbrev refWhere : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The edges' weights, as a vector and as a column. -/
abbrev refWeights : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    unary main_v29 main_v30 (broadcastInDim S1700000x1 ![0] bcast_S1700000_S1700000x1_0 : (⟨S1700000, .f32⟩ : BufTy).Contents (Elt F) → (⟨S1700000x1, .f32⟩ : BufTy).Contents (Elt F)) ]

/-- The first layer up to the bias: product, aggregation, bias. -/
abbrev refSum1 : List (HloOp τ sig (Elt F)) :=
  [ binary main_arg0 main_arg2 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v38 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- The first layer's maximum with zero (an outlined call's three operations). -/
abbrev refRelu1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- The second layer up to the bias. -/
abbrev refSum2 : List (HloOp τ sig (Elt F)) :=
  [ binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v56 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v56 main_v57 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v58 (broadcastInDim S100000x128 ![] bcast_S_S100000x128 : (⟨S_, .f32⟩ : BufTy).Contents (Elt F) → (⟨S100000x128, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v61 (broadcastInDim S1x128 ![1] bcast_S128_S1x128_1 : (⟨S128, .f32⟩ : BufTy).Contents (Elt F) → (⟨S1x128, .f32⟩ : BufTy).Contents (Elt F)),
    unary main_v61 main_v62 (broadcastInDim S100000x128 ![0, 1] bcast_S1x128_S100000x128_0_1 : (⟨S1x128, .f32⟩ : BufTy).Contents (Elt F) → (⟨S100000x128, .f32⟩ : BufTy).Contents (Elt F)),
    binary main_v60 main_v62 main_v63 (addf : (⟨S100000x128, .f32⟩ : BufTy).Contents (Elt F) → (⟨S100000x128, .f32⟩ : BufTy).Contents (Elt F) → (⟨S100000x128, .f32⟩ : BufTy).Contents (Elt F)) ]

/-- The second layer's maximum with zero. -/
abbrev refRelu2 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v63) (TRef.of (T := ⟨S100000x128, .f32⟩) main_call2_v0) (TRef.of (T := ⟨S100000x128, .f32⟩) main_v64) maximumf ]

/-- The third layer up to the bias. -/
abbrev refSum3 : List (HloOp τ sig (Elt F)) :=
  [ binary main_v64 main_arg6 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_12 (constantI S_ 32 0#32),
    unary main_c_12 main_v66 (broadcastInDim S1700000 ![] bcast_S_S1700000 : (⟨S_, .i32⟩ : BufTy).Contents (Elt F) → (⟨S1700000, .i32⟩ : BufTy).Contents (Elt F)),
    binary main_v3 main_v66 main_v67 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v68 (broadcastInDim S1700000 ![] bcast_S_S1700000 : (⟨S_, .i32⟩ : BufTy).Contents (Elt F) → (⟨S1700000, .i32⟩ : BufTy).Contents (Elt F)),
    binary main_v3 main_v68 main_v69 (addi : (⟨S1700000, .i32⟩ : BufTy).Contents (Elt F) → (⟨S1700000, .i32⟩ : BufTy).Contents (Elt F) → (⟨S1700000, .i32⟩ : BufTy).Contents (Elt F)),
    ternary main_v67 main_v69 main_v3 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v70 main_v71 (broadcastInDim S1700000x1 ![0] bcast_S1700000_S1700000x1_0 : (⟨S1700000, .i32⟩ : BufTy).Contents (Elt F) → (⟨S1700000x1, .i32⟩ : BufTy).Contents (Elt F)),
    binary main_v65 main_v71 main_v72 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v73 (broadcastInDim S1700000x128 ![0, 1] bcast_S1700000x1_S1700000x128_0_1 : (⟨S1700000x1, .f32⟩ : BufTy).Contents (Elt F) → (⟨S1700000x128, .f32⟩ : BufTy).Contents (Elt F)),
    binary main_v72 main_v73 main_v74 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v75 (broadcastInDim S100000x128 ![] bcast_S_S100000x128 : (⟨S_, .f32⟩ : BufTy).Contents (Elt F) → (⟨S100000x128, .f32⟩ : BufTy).Contents (Elt F)),
    unary main_v6 main_v76 (broadcastInDim S1700000x1 ![0] bcast_S1700000_S1700000x1_0 : (⟨S1700000, .i32⟩ : BufTy).Contents (Elt F) → (⟨S1700000x1, .i32⟩ : BufTy).Contents (Elt F)),
    ternary main_v75 main_v76 main_v74 main_v77 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg7 main_v78 (broadcastInDim S1x128 ![1] bcast_S128_S1x128_1 : (⟨S128, .f32⟩ : BufTy).Contents (Elt F) → (⟨S1x128, .f32⟩ : BufTy).Contents (Elt F)),
    unary main_v78 main_v79 (broadcastInDim S100000x128 ![0, 1] bcast_S1x128_S100000x128_0_1 : (⟨S1x128, .f32⟩ : BufTy).Contents (Elt F) → (⟨S100000x128, .f32⟩ : BufTy).Contents (Elt F)),
    binary main_v77 main_v79 main_v80 (addf : (⟨S100000x128, .f32⟩ : BufTy).Contents (Elt F) → (⟨S100000x128, .f32⟩ : BufTy).Contents (Elt F) → (⟨S100000x128, .f32⟩ : BufTy).Contents (Elt F)) ]

/-- The third layer's maximum with zero. -/
abbrev refRelu3 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v80) (TRef.of (T := ⟨S100000x128, .f32⟩) main_call3_v0) (TRef.of (T := ⟨S100000x128, .f32⟩) main_v81) maximumf ]

/-- The line is its nine stretches in order. -/
theorem ops_eq : (ops : List (HloOp τ sig (Elt F)))
    = refEnds ++ (refWhere ++ (refWeights ++ (refSum1 ++ (refRelu1 ++ (refSum2 ++ (refRelu2 ++ (refSum3 ++ refRelu3))))))) := rfl

end Pieces

/-- The reference's records are the shared ones. -/
theorem scatter_eq : scatter_S100000x128_S1700000x1_S1700000x128_1_0_0_1 = Cert.KernelIdeal.scatter_S100000x128_S1700000x1_S1700000x128_1_0_0_1 := rfl
theorem gather_eq : gather_S100000x128_S1700000x1_S1700000x128_1_0_n_n_0_1_1128 = Cert.KernelIdeal.gather_S100000x128_S1700000x1_S1700000x128_1_0_n_n_0_1_1128 := rfl
theorem dot_eq : dot_S100000x128_S128x128_S100000x128_1_0_0_1_n_n = DotDims.plain 100000 128 128 := rfl

/-! ## What each stretch writes, and what it therefore leaves alone -/

/-- The buffers the first stretch writes. -/
def wEnds : List (Ref sig .tc) := [main_v0, main_v1, main_v2, main_v3, main_v4, main_v5, main_v6, main_cst, main_v7, main_cst_0, main_v8, main_v9, main_v10, main_cst_1, main_v11, main_v12, main_v13, main_cst_2]
theorem wEnds_sub : (refEnds : List (HloOp τ sig (Elt Ideal))).Forall fun op => op.writes ⊆ (wEnds.map (Proc.devRef (τ := τ) .tc)).toFinset := by
  simp only [refEnds, List.Forall, nullary_writes, unary_writes, binary_writes, ternary_writes, reshape_writes]
  repeat' apply And.intro
  all_goals (refine Finset.singleton_subset_iff.mpr (List.mem_toFinset.mpr (List.mem_map.mpr ⟨_, ?_, rfl⟩)); decide)
/-- A buffer not among them holds after the stretch what it held before. -/
theorem keep_refEnds (X : Valuation τ sig (Elt Ideal)) (r : Ref sig .tc) (hr : r ∉ wEnds) :
    after refEnds X (Proc.devRef .tc r) = X (Proc.devRef .tc r) :=
  after_of_writes_sub refEnds X wEnds_sub hr

/-- The buffers the second stretch writes. -/
def wWhere : List (Ref sig .tc) := [main_call0_v0, main_call0_v1, main_v14]
theorem wWhere_sub : (refWhere : List (HloOp τ sig (Elt Ideal))).Forall fun op => op.writes ⊆ (wWhere.map (Proc.devRef (τ := τ) .tc)).toFinset := by
  simp only [refWhere, List.Forall, nullary_writes, unary_writes, binary_writes, ternary_writes, reshape_writes]
  repeat' apply And.intro
  all_goals (refine Finset.singleton_subset_iff.mpr (List.mem_toFinset.mpr (List.mem_map.mpr ⟨_, ?_, rfl⟩)); decide)
/-- A buffer not among them holds after the stretch what it held before. -/
theorem keep_refWhere (X : Valuation τ sig (Elt Ideal)) (r : Ref sig .tc) (hr : r ∉ wWhere) :
    after refWhere X (Proc.devRef .tc r) = X (Proc.devRef .tc r) :=
  after_of_writes_sub refWhere X wWhere_sub hr

/-- The buffers the third stretch writes. -/
def wWeights : List (Ref sig .tc) := [main_c, main_v15, main_v16, main_c_3, main_v17, main_v18, main_v19, main_v20, main_v21, main_c_4, main_v22, main_v23, main_c_5, main_v24, main_v25, main_v26, main_v27, main_v28, main_v29, main_v30]
theorem wWeights_sub : (refWeights : List (HloOp τ sig (Elt Ideal))).Forall fun op => op.writes ⊆ (wWeights.map (Proc.devRef (τ := τ) .tc)).toFinset := by
  simp only [refWeights, List.Forall, nullary_writes, unary_writes, binary_writes, ternary_writes, reshape_writes]
  repeat' apply And.intro
  all_goals (refine Finset.singleton_subset_iff.mpr (List.mem_toFinset.mpr (List.mem_map.mpr ⟨_, ?_, rfl⟩)); decide)
/-- A buffer not among them holds after the stretch what it held before. -/
theorem keep_refWeights (X : Valuation τ sig (Elt Ideal)) (r : Ref sig .tc) (hr : r ∉ wWeights) :
    after refWeights X (Proc.devRef .tc r) = X (Proc.devRef .tc r) :=
  after_of_writes_sub refWeights X wWeights_sub hr

/-- The buffers the first layer writes up to the bias, -/
def wSum1 : List (Ref sig .tc) := [main_v31, main_c_6, main_v32, main_v33, main_c_7, main_v34, main_v35, main_v36, main_v37, main_v38, main_v39, main_v40, main_cst_8, main_v41, main_v42, main_v43, main_v44, main_v45, main_v46]
theorem wSum1_sub : (refSum1 : List (HloOp τ sig (Elt Ideal))).Forall fun op => op.writes ⊆ (wSum1.map (Proc.devRef (τ := τ) .tc)).toFinset := by
  simp only [refSum1, List.Forall, nullary_writes, unary_writes, binary_writes, ternary_writes, reshape_writes]
  repeat' apply And.intro
  all_goals (refine Finset.singleton_subset_iff.mpr (List.mem_toFinset.mpr (List.mem_map.mpr ⟨_, ?_, rfl⟩)); decide)
/-- A buffer not among them holds after the stretch what it held before. -/
theorem keep_refSum1 (X : Valuation τ sig (Elt Ideal)) (r : Ref sig .tc) (hr : r ∉ wSum1) :
    after refSum1 X (Proc.devRef .tc r) = X (Proc.devRef .tc r) :=
  after_of_writes_sub refSum1 X wSum1_sub hr

/-- and in its maximum with zero. -/
def wRelu1 : List (Ref sig .tc) := [main_call1_cst, main_call1_v0, main_v47]
theorem wRelu1_sub : (refRelu1 : List (HloOp τ sig (Elt Ideal))).Forall fun op => op.writes ⊆ (wRelu1.map (Proc.devRef (τ := τ) .tc)).toFinset := by
  simp only [refRelu1, List.Forall, nullary_writes, unary_writes, binary_writes, ternary_writes, reshape_writes]
  repeat' apply And.intro
  all_goals (refine Finset.singleton_subset_iff.mpr (List.mem_toFinset.mpr (List.mem_map.mpr ⟨_, ?_, rfl⟩)); decide)
/-- A buffer not among them holds after the stretch what it held before. -/
theorem keep_refRelu1 (X : Valuation τ sig (Elt Ideal)) (r : Ref sig .tc) (hr : r ∉ wRelu1) :
    after refRelu1 X (Proc.devRef .tc r) = X (Proc.devRef .tc r) :=
  after_of_writes_sub refRelu1 X wRelu1_sub hr

/-- The buffers the second layer writes up to the bias, -/
def wSum2 : List (Ref sig .tc) := [main_v48, main_c_9, main_v49, main_v50, main_c_10, main_v51, main_v52, main_v53, main_v54, main_v55, main_v56, main_v57, main_cst_11, main_v58, main_v59, main_v60, main_v61, main_v62, main_v63]
theorem wSum2_sub : (refSum2 : List (HloOp τ sig (Elt Ideal))).Forall fun op => op.writes ⊆ (wSum2.map (Proc.devRef (τ := τ) .tc)).toFinset := by
  simp only [refSum2, List.Forall, nullary_writes, unary_writes, binary_writes, ternary_writes, reshape_writes]
  repeat' apply And.intro
  all_goals (refine Finset.singleton_subset_iff.mpr (List.mem_toFinset.mpr (List.mem_map.mpr ⟨_, ?_, rfl⟩)); decide)
/-- A buffer not among them holds after the stretch what it held before. -/
theorem keep_refSum2 (X : Valuation τ sig (Elt Ideal)) (r : Ref sig .tc) (hr : r ∉ wSum2) :
    after refSum2 X (Proc.devRef .tc r) = X (Proc.devRef .tc r) :=
  after_of_writes_sub refSum2 X wSum2_sub hr

/-- and in its maximum with zero. -/
def wRelu2 : List (Ref sig .tc) := [main_call2_cst, main_call2_v0, main_v64]
theorem wRelu2_sub : (refRelu2 : List (HloOp τ sig (Elt Ideal))).Forall fun op => op.writes ⊆ (wRelu2.map (Proc.devRef (τ := τ) .tc)).toFinset := by
  simp only [refRelu2, List.Forall, nullary_writes, unary_writes, binary_writes, ternary_writes, reshape_writes]
  repeat' apply And.intro
  all_goals (refine Finset.singleton_subset_iff.mpr (List.mem_toFinset.mpr (List.mem_map.mpr ⟨_, ?_, rfl⟩)); decide)
/-- A buffer not among them holds after the stretch what it held before. -/
theorem keep_refRelu2 (X : Valuation τ sig (Elt Ideal)) (r : Ref sig .tc) (hr : r ∉ wRelu2) :
    after refRelu2 X (Proc.devRef .tc r) = X (Proc.devRef .tc r) :=
  after_of_writes_sub refRelu2 X wRelu2_sub hr

/-! ## The stretches, from any contents -/

section Stretches

variable (V : Valuation τ sig (Elt Ideal))

/-- The first stretch builds the edges' source nodes -/
theorem stretch_src : after refEnds V (Proc.devRef .tc main_v3) = srcOf (V (Proc.devRef .tc main_arg1)) := by
  after_results_simp
  after_results_rest
  rfl
/-- and destination nodes from the edge array, -/
theorem stretch_dst : after refEnds V (Proc.devRef .tc main_v6) = dstOf (V (Proc.devRef .tc main_arg1)) := by
  after_results_simp
  after_results_rest
  rfl
/-- where the degrees are positive, -/
theorem stretch_pos : after refEnds V (Proc.devRef .tc main_v12) = cmpf .ogt (degOf (F := Ideal) (dstOf (V (Proc.devRef .tc main_arg1)))) (zeros (F := Ideal)) := by
  after_results_simp
  after_results_rest
  rfl
/-- their reciprocal square roots, -/
theorem stretch_rsqrt : after refEnds V (Proc.devRef .tc main_v13) = Host.rsqrt (degOf (F := Ideal) (dstOf (V (Proc.devRef .tc main_arg1)))) := by
  after_results_simp
  after_results_rest
  rfl
/-- and a zero. -/
theorem stretch_zero : after refEnds V (Proc.devRef .tc main_cst_2) = constant (F := Ideal) S_ .f32 0x00000000#32 := by
  after_results_simp

/-- The second stretch selects between the two: the nodes' factors. -/
theorem stretch_where : after refWhere V (Proc.devRef .tc main_v14)
    = select (V (Proc.devRef .tc main_v12)) (V (Proc.devRef .tc main_v13)) (broadcastInDim S100000 ![] Facts₀.bcast_S_S100000 (V (Proc.devRef .tc main_cst_2))) := by
  after_results_simp
  simp only [ofBuf_toBuf]
  rfl

/-- The third stretch multiplies the endpoints' factors, the edges' weights, and lays them out as a column. -/
theorem stretch_col : after refWeights V (Proc.devRef .tc main_v30)
    = colOf (F := Ideal) (weightOf (F := Ideal) (V (Proc.devRef .tc main_v14)) (V (Proc.devRef .tc main_v3)) (V (Proc.devRef .tc main_v6))) := by
  after_results_simp
  rfl

/-- Layer 1's operations up to the bias, as they are spelt: the product sent along the edges, plus the bias on every row. -/
theorem stretch_refSum1 : after refSum1 V (Proc.devRef .tc main_v46)
    = addf (Host.scatterAdd scatter_S100000x128_S1700000x1_S1700000x128_1_0_0_1
          (broadcastInDim S100000x128 ![] Facts₀.bcast_S_S100000x128 (constant (F := Ideal) S_ .f32 0x00000000#32))
          (broadcastInDim S1700000x1 ![0] Facts₀.bcast_S1700000_S1700000x1_0 (V (Proc.devRef .tc main_v6)))
          (mulf (Host.gather gather_S100000x128_S1700000x1_S1700000x128_1_0_n_n_0_1_1128
              (Host.dotGeneral (F := Ideal) (φ₁ := .f32) (φ₂ := .f32) dot_S100000x128_S128x128_S100000x128_1_0_0_1_n_n none (V (Proc.devRef .tc main_arg0)) (V (Proc.devRef .tc main_arg2)))
              (broadcastInDim S1700000x1 ![0] Facts₀.bcast_S1700000_S1700000x1_0
                (select (cmpi .slt (V (Proc.devRef .tc main_v3)) (broadcastInDim S1700000 ![] Facts₀.bcast_S_S1700000 (constantI S_ 32 0#32)))
                  (addi (V (Proc.devRef .tc main_v3)) (broadcastInDim S1700000 ![] Facts₀.bcast_S_S1700000 (constantI S_ 32 100000#32))) (V (Proc.devRef .tc main_v3)))))
            (broadcastInDim S1700000x128 ![0, 1] Facts₀.bcast_S1700000x1_S1700000x128_0_1 (V (Proc.devRef .tc main_v30)))))
        (broadcastInDim S100000x128 ![0, 1] Facts₀.bcast_S1x128_S100000x128_0_1 (broadcastInDim S1x128 ![1] Facts₀.bcast_S128_S1x128_1 (V (Proc.devRef .tc main_arg3)))) := by
  after_results_simp
/-- Layer 1's outlined maximum with zero, of whatever its operand holds. -/
theorem stretch_refRelu1 : after refRelu1 V (Proc.devRef .tc main_v47)
    = maximumf (V (Proc.devRef .tc main_v46)) (broadcastInDim S100000x128 ![] Facts₀.bcast_S_S100000x128 (constant (F := Ideal) S_ .f32 0x00000000#32)) := by
  after_results_simp
  simp only [ofBuf_toBuf]
  rfl
/-- Layer 1's two stretches together are one layer of what they read. -/
theorem stretch_layer1 : after refRelu1 (after refSum1 V) (Proc.devRef .tc main_v47)
    = biasRelu (M := 100000) (N := 128) (aggregateCol (F := Ideal) (rowsTimes (M := 100000) (K := 128) (N := 128) (V (Proc.devRef .tc main_arg0)) (V (Proc.devRef .tc main_arg2)))
        (V (Proc.devRef .tc main_v3)) (V (Proc.devRef .tc main_v6)) (V (Proc.devRef .tc main_v30))) (V (Proc.devRef .tc main_arg3)) := by
  rw [stretch_refRelu1, stretch_refSum1, scatter_eq, gather_eq, dot_eq, hostDot_eq]
  refine (hostBiasRelu_eq (M := 100000) (N := 128) _ (V (Proc.devRef .tc main_arg3)) _ _ _).trans ?_
  rfl
/-- Layer 2's operations up to the bias, as they are spelt: the product sent along the edges, plus the bias on every row. -/
theorem stretch_refSum2 : after refSum2 V (Proc.devRef .tc main_v63)
    = addf (Host.scatterAdd scatter_S100000x128_S1700000x1_S1700000x128_1_0_0_1
          (broadcastInDim S100000x128 ![] Facts₀.bcast_S_S100000x128 (constant (F := Ideal) S_ .f32 0x00000000#32))
          (broadcastInDim S1700000x1 ![0] Facts₀.bcast_S1700000_S1700000x1_0 (V (Proc.devRef .tc main_v6)))
          (mulf (Host.gather gather_S100000x128_S1700000x1_S1700000x128_1_0_n_n_0_1_1128
              (Host.dotGeneral (F := Ideal) (φ₁ := .f32) (φ₂ := .f32) dot_S100000x128_S128x128_S100000x128_1_0_0_1_n_n none (V (Proc.devRef .tc main_v47)) (V (Proc.devRef .tc main_arg4)))
              (broadcastInDim S1700000x1 ![0] Facts₀.bcast_S1700000_S1700000x1_0
                (select (cmpi .slt (V (Proc.devRef .tc main_v3)) (broadcastInDim S1700000 ![] Facts₀.bcast_S_S1700000 (constantI S_ 32 0#32)))
                  (addi (V (Proc.devRef .tc main_v3)) (broadcastInDim S1700000 ![] Facts₀.bcast_S_S1700000 (constantI S_ 32 100000#32))) (V (Proc.devRef .tc main_v3)))))
            (broadcastInDim S1700000x128 ![0, 1] Facts₀.bcast_S1700000x1_S1700000x128_0_1 (V (Proc.devRef .tc main_v30)))))
        (broadcastInDim S100000x128 ![0, 1] Facts₀.bcast_S1x128_S100000x128_0_1 (broadcastInDim S1x128 ![1] Facts₀.bcast_S128_S1x128_1 (V (Proc.devRef .tc main_arg5)))) := by
  after_results_simp
/-- Layer 2's outlined maximum with zero, of whatever its operand holds. -/
theorem stretch_refRelu2 : after refRelu2 V (Proc.devRef .tc main_v64)
    = maximumf (V (Proc.devRef .tc main_v63)) (broadcastInDim S100000x128 ![] Facts₀.bcast_S_S100000x128 (constant (F := Ideal) S_ .f32 0x00000000#32)) := by
  after_results_simp
  simp only [ofBuf_toBuf]
  rfl
/-- Layer 2's two stretches together are one layer of what they read. -/
theorem stretch_layer2 : after refRelu2 (after refSum2 V) (Proc.devRef .tc main_v64)
    = biasRelu (M := 100000) (N := 128) (aggregateCol (F := Ideal) (rowsTimes (M := 100000) (K := 128) (N := 128) (V (Proc.devRef .tc main_v47)) (V (Proc.devRef .tc main_arg4)))
        (V (Proc.devRef .tc main_v3)) (V (Proc.devRef .tc main_v6)) (V (Proc.devRef .tc main_v30))) (V (Proc.devRef .tc main_arg5)) := by
  rw [stretch_refRelu2, stretch_refSum2, scatter_eq, gather_eq, dot_eq, hostDot_eq]
  refine (hostBiasRelu_eq (M := 100000) (N := 128) _ (V (Proc.devRef .tc main_arg5)) _ _ _).trans ?_
  rfl
/-- Layer 3's operations up to the bias, as they are spelt: the product sent along the edges, plus the bias on every row. -/
theorem stretch_refSum3 : after refSum3 V (Proc.devRef .tc main_v80)
    = addf (Host.scatterAdd scatter_S100000x128_S1700000x1_S1700000x128_1_0_0_1
          (broadcastInDim S100000x128 ![] Facts₀.bcast_S_S100000x128 (constant (F := Ideal) S_ .f32 0x00000000#32))
          (broadcastInDim S1700000x1 ![0] Facts₀.bcast_S1700000_S1700000x1_0 (V (Proc.devRef .tc main_v6)))
          (mulf (Host.gather gather_S100000x128_S1700000x1_S1700000x128_1_0_n_n_0_1_1128
              (Host.dotGeneral (F := Ideal) (φ₁ := .f32) (φ₂ := .f32) dot_S100000x128_S128x128_S100000x128_1_0_0_1_n_n none (V (Proc.devRef .tc main_v64)) (V (Proc.devRef .tc main_arg6)))
              (broadcastInDim S1700000x1 ![0] Facts₀.bcast_S1700000_S1700000x1_0
                (select (cmpi .slt (V (Proc.devRef .tc main_v3)) (broadcastInDim S1700000 ![] Facts₀.bcast_S_S1700000 (constantI S_ 32 0#32)))
                  (addi (V (Proc.devRef .tc main_v3)) (broadcastInDim S1700000 ![] Facts₀.bcast_S_S1700000 (constantI S_ 32 100000#32))) (V (Proc.devRef .tc main_v3)))))
            (broadcastInDim S1700000x128 ![0, 1] Facts₀.bcast_S1700000x1_S1700000x128_0_1 (V (Proc.devRef .tc main_v30)))))
        (broadcastInDim S100000x128 ![0, 1] Facts₀.bcast_S1x128_S100000x128_0_1 (broadcastInDim S1x128 ![1] Facts₀.bcast_S128_S1x128_1 (V (Proc.devRef .tc main_arg7)))) := by
  after_results_simp
/-- Layer 3's outlined maximum with zero, of whatever its operand holds. -/
theorem stretch_refRelu3 : after refRelu3 V (Proc.devRef .tc main_v81)
    = maximumf (V (Proc.devRef .tc main_v80)) (broadcastInDim S100000x128 ![] Facts₀.bcast_S_S100000x128 (constant (F := Ideal) S_ .f32 0x00000000#32)) := by
  after_results_simp
  simp only [ofBuf_toBuf]
  rfl
/-- Layer 3's two stretches together are one layer of what they read. -/
theorem stretch_layer3 : after refRelu3 (after refSum3 V) (Proc.devRef .tc main_v81)
    = biasRelu (M := 100000) (N := 128) (aggregateCol (F := Ideal) (rowsTimes (M := 100000) (K := 128) (N := 128) (V (Proc.devRef .tc main_v64)) (V (Proc.devRef .tc main_arg6)))
        (V (Proc.devRef .tc main_v3)) (V (Proc.devRef .tc main_v6)) (V (Proc.devRef .tc main_v30))) (V (Proc.devRef .tc main_arg7)) := by
  rw [stretch_refRelu3, stretch_refSum3, scatter_eq, gather_eq, dot_eq, hostDot_eq]
  refine (hostBiasRelu_eq (M := 100000) (N := 128) _ (V (Proc.devRef .tc main_arg7)) _ _ _).trans ?_
  rfl
end Stretches

/-! ## The boundaries -/

variable (m : (ℓ : Loc nD τ sig) → Buf (Elt Ideal) ℓ) (c : Dev nD)

/-- The contents after the first stretch, -/
def R1 : Valuation τ sig (Elt Ideal) := after refEnds (launchContents m c)
/-- the second, -/
def R2 : Valuation τ sig (Elt Ideal) := after refWhere (R1 m c)
/-- the third, -/
def R3 : Valuation τ sig (Elt Ideal) := after refWeights (R2 m c)
/-- the first layer, -/
def R4 : Valuation τ sig (Elt Ideal) := after refRelu1 (after refSum1 (R3 m c))
/-- the second layer. -/
def R5 : Valuation τ sig (Elt Ideal) := after refRelu2 (after refSum2 (R4 m c))

/-- The whole line is the third layer's two stretches run from there. -/
theorem after_ops : after ops (launchContents m c) = after refRelu3 (after refSum3 (R5 m c)) := by
  rw [ops_eq, StableHlo.after_append, StableHlo.after_append, StableHlo.after_append, StableHlo.after_append, StableHlo.after_append,
    StableHlo.after_append, StableHlo.after_append, StableHlo.after_append]
  rfl

/-- No stretch before the layers writes an argument. -/
theorem R3_arg (b : Ref sig .tc) (h0 : b ∉ wEnds) (h1 : b ∉ wWhere) (h2 : b ∉ wWeights) :
    R3 m c (Proc.devRef .tc b) = m ((c.tc : Thread nD τ).loc b) :=
  (keep_refWeights (R2 m c) b h2).trans ((keep_refWhere (R1 m c) b h1).trans (keep_refEnds (launchContents m c) b h0))

/-- At the first layer the index vectors and the column of the edges' weights are those of the edge array. -/
theorem R3_src : R3 m c (Proc.devRef .tc main_v3) = srcOf (m ((c.tc : Thread nD τ).loc main_arg1)) :=
  (keep_refWeights (R2 m c) main_v3 (by decide)).trans ((keep_refWhere (R1 m c) main_v3 (by decide)).trans (stretch_src (launchContents m c)))
theorem R3_dst : R3 m c (Proc.devRef .tc main_v6) = dstOf (m ((c.tc : Thread nD τ).loc main_arg1)) :=
  (keep_refWeights (R2 m c) main_v6 (by decide)).trans ((keep_refWhere (R1 m c) main_v6 (by decide)).trans (stretch_dst (launchContents m c)))
theorem R3_col : R3 m c (Proc.devRef .tc main_v30) = colOf (F := Ideal) (normOf (F := Ideal) (m ((c.tc : Thread nD τ).loc main_arg1))) := by
  show after refWeights (after refWhere (after refEnds (launchContents m c))) (Proc.devRef .tc main_v30) = _
  rw [stretch_col, stretch_where, stretch_pos, stretch_rsqrt, stretch_zero, keep_refWhere _ main_v3 (by decide),
    keep_refWhere _ main_v6 (by decide), stretch_src, stretch_dst]
  rfl

/-- After the first layer's stretches: the first layer, -/
theorem R4_feat : R4 m c (Proc.devRef .tc main_v47)
    = layer (m ((c.tc : Thread nD τ).loc main_arg0)) (m ((c.tc : Thread nD τ).loc main_arg1)) (m ((c.tc : Thread nD τ).loc main_arg2))
        (m ((c.tc : Thread nD τ).loc main_arg3)) := by
  show after refRelu1 (after refSum1 (R3 m c)) (Proc.devRef .tc main_v47) = _
  rw [stretch_layer1, R3_arg m c main_arg0 (by decide) (by decide) (by decide), R3_arg m c main_arg2 (by decide) (by decide) (by decide),
    R3_arg m c main_arg3 (by decide) (by decide) (by decide), R3_src, R3_dst, R3_col]
  rfl
/-- and what the later layers read is unchanged. -/
theorem R4_keep (b : Ref sig .tc) (h1 : b ∉ wSum1) (h2 : b ∉ wRelu1) : R4 m c (Proc.devRef .tc b) = R3 m c (Proc.devRef .tc b) :=
  (keep_refRelu1 (after refSum1 (R3 m c)) b h2).trans (keep_refSum1 (R3 m c) b h1)

/-- After the second layer's stretches: two layers, -/
theorem R5_feat : R5 m c (Proc.devRef .tc main_v64)
    = layer (layer (m ((c.tc : Thread nD τ).loc main_arg0)) (m ((c.tc : Thread nD τ).loc main_arg1)) (m ((c.tc : Thread nD τ).loc main_arg2))
          (m ((c.tc : Thread nD τ).loc main_arg3)))
        (m ((c.tc : Thread nD τ).loc main_arg1)) (m ((c.tc : Thread nD τ).loc main_arg4)) (m ((c.tc : Thread nD τ).loc main_arg5)) := by
  show after refRelu2 (after refSum2 (R4 m c)) (Proc.devRef .tc main_v64) = _
  rw [stretch_layer2, R4_feat, R4_keep m c main_arg4 (by decide) (by decide), R4_keep m c main_arg5 (by decide) (by decide),
    R4_keep m c main_v3 (by decide) (by decide), R4_keep m c main_v6 (by decide) (by decide), R4_keep m c main_v30 (by decide) (by decide),
    R3_arg m c main_arg4 (by decide) (by decide) (by decide), R3_arg m c main_arg5 (by decide) (by decide) (by decide), R3_src, R3_dst, R3_col]
  rfl
/-- and what the last layer reads is unchanged. -/
theorem R5_keep (b : Ref sig .tc) (h1 : b ∉ wSum1) (h2 : b ∉ wRelu1) (h3 : b ∉ wSum2) (h4 : b ∉ wRelu2) :
    R5 m c (Proc.devRef .tc b) = R3 m c (Proc.devRef .tc b) :=
  (keep_refRelu2 (after refSum2 (R4 m c)) b h4).trans ((keep_refSum2 (R4 m c) b h3).trans (R4_keep m c b h1 h2))

/-- At the end: the network. -/
theorem result : after ops (launchContents m c) (Proc.devRef .tc main_v81)
    = net (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  rw [after_ops, stretch_layer3, R5_feat, R5_keep m c main_arg6 (by decide) (by decide) (by decide) (by decide),
    R5_keep m c main_arg7 (by decide) (by decide) (by decide) (by decide), R5_keep m c main_v3 (by decide) (by decide) (by decide) (by decide),
    R5_keep m c main_v6 (by decide) (by decide) (by decide) (by decide), R5_keep m c main_v30 (by decide) (by decide) (by decide) (by decide),
    R3_arg m c main_arg6 (by decide) (by decide) (by decide), R3_arg m c main_arg7 (by decide) (by decide) (by decide), R3_src, R3_dst, R3_col]
  rfl

end Cert.ReferenceIdeal.GcnRef

end
-- ==== Proof.lean ====
/-
  The certificate of a three-layer graph convolution network on 100000 nodes with 128 features, 1600000 edges and a
  self-loop at every node.

  Both programs compute, layer by layer, relu (A (h W) + b): the features h times a weight matrix W, the products sent
  along the edges — each scaled by the product of its endpoints' factors, a node's factor being the reciprocal square
  root of its degree — and added up at the destinations, a bias b added to every row, and the maximum with zero. The
  kernel program does the matrix product (on bf16-narrowed operands, into a zero accumulator) and the bias step in
  kernels over twenty blocks of 5000 rows, and the aggregation on the host; the reference does everything on the host.

  Over the extended reals narrowing is the identity, the matrix unit's product into a zero accumulator and the host's
  dot_general are both the row-by-column sums, and both bias steps are max (a + b, 0) entry by entry; every other
  operation is the same operation in both programs. So both result arrays are the one function `Cert.Gcn.net` of the
  arguments — the same sums in the same order, so no law of arithmetic is needed, and the precondition is not used.

  The frames of the two kernel programs are the generated ones; the reference's frame is its run with the result
  dropped; the idealization rewrote nothing, so there is nothing to preserve.
-/
import proofs.«136238_j68478958568087_1_alg».proof.Defs
import proofs.«136238_j68478958568087_1_alg».proof.Proof.Gen.Kernel
import proofs.«136238_j68478958568087_1_alg».proof.Proof.Gen.Kernel.Frame
import proofs.«136238_j68478958568087_1_alg».proof.Proof.Gen.KernelIdeal
import proofs.«136238_j68478958568087_1_alg».proof.Proof.Gen.KernelIdeal.Frame
import proofs.«136238_j68478958568087_1_alg».proof.Proof.Gen.ReferenceIdeal
import proofs.«136238_j68478958568087_1_alg».proof.Proof.Gen.Pre_finite_inputs
import proofs.«136238_j68478958568087_1_alg».proof.Proof.KernelRun
import proofs.«136238_j68478958568087_1_alg».proof.Proof.KernelHost
import proofs.«136238_j68478958568087_1_alg».proof.Proof.RefRun
import proofs.«136238_j68478958568087_1_alg».proof.Proof.RefValue
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the network of the arguments in their
    result arrays. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.GcnHost.W12_feat m ρ c), (h c).2⟩)
      (Cert.KernelIdeal.GcnRun.run (F := Ideal) m ρ)
  · refine (θ_run Cert.ReferenceIdeal.defs _ _).mono (fun r h c => ⟨(h c).1.trans ?_, (h c).2⟩) (Cert.ReferenceIdeal.ValueP.run (F := Ideal) m' ρ')
    obtain ⟨e0, e1, e2, e3, e4, e5, e6, e7⟩ := hagree c
    rw [Cert.ReferenceIdeal.GcnRef.result, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
